-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S64x256 : Shape := ⟨2, ![64, 256]⟩
abbrev S64 : Shape := ⟨1, ![64]⟩
abbrev S256x256 : Shape := ⟨2, ![256, 256]⟩
abbrev S256 : Shape := ⟨1, ![256]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256 .f32) (main_arg10 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S64x256 .f32) (main_arg5 : FVec F S64 .f32) (main_arg6 : FVec F S64 .f32) (main_arg7 : FVec F S256x256 .f32) (main_arg8 : FVec F S256 .f32) (main_arg9 : FVec F S256 .f32) (main_arg10 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x2048x256 .f32) (main_arg1 : FVec F S64x256 .f32) (main_arg2 : FVec F S64 .f32) (main_arg3 : FVec F S64 .f32) (main_arg4 : FVec F S64x256 .f32) (main_arg5 : FVec F S64 .f32) (main_arg6 : FVec F S64 .f32) (main_arg7 : FVec F S256x256 .f32) (main_arg8 : FVec F S256 .f32) (main_arg9 : FVec F S256 .f32) (main_arg10 : FVec F S256 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S32x2048x256 : Shape := ⟨3, ![32, 2048, 256]⟩
abbrev S64x256 : Shape := ⟨2, ![64, 256]⟩
abbrev S64 : Shape := ⟨1, ![64]⟩
abbrev S256x256 : Shape := ⟨2, ![256, 256]⟩
abbrev S256 : Shape := ⟨1, ![256]⟩
abbrev S_ : Shape := ⟨0, ![]⟩
abbrev S64x1 : Shape := ⟨2, ![64, 1]⟩
abbrev S256x64 : Shape := ⟨2, ![256, 64]⟩
abbrev S1x64 : Shape := ⟨2, ![1, 64]⟩
abbrev S32x1x256 : Shape := ⟨3, ![32, 1, 256]⟩
abbrev S1x2048x256 : Shape := ⟨3, ![1, 2048, 256]⟩
abbrev S1x1x256 : Shape := ⟨3, ![1, 1, 256]⟩
abbrev S2048x256 : Shape := ⟨2, ![2048, 256]⟩
abbrev S2048x64 : Shape := ⟨2, ![2048, 64]⟩
abbrev S2048 : Shape := ⟨1, ![2048]⟩
abbrev S2048x1 : Shape := ⟨2, ![2048, 1]⟩
abbrev S1x2048 : Shape := ⟨2, ![1, 2048]⟩
abbrev S64x2048 : Shape := ⟨2, ![64, 2048]⟩
abbrev S256x2048 : Shape := ⟨2, ![256, 2048]⟩
abbrev S1x256 : Shape := ⟨2, ![1, 256]⟩
abbrev S256x1 : Shape := ⟨2, ![256, 1]⟩
abbrev S32x256 : Shape := ⟨2, ![32, 256]⟩

abbrev nBuf : Space → Nat
  | .hbm => 82
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S64x256, .f32⟩
  | .hbm, ⟨2, _⟩ => ⟨S64, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S64, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S64x256, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x256, .f32⟩
  | .hbm, ⟨18, _⟩ => ⟨S64x256, .f32⟩
  | .hbm, ⟨19, _⟩ => ⟨S64x256, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64x1, .f32⟩
  | .hbm, ⟨25, _⟩ => ⟨S64x256, .f32⟩
  | .hbm, ⟨26, _⟩ => ⟨S64x256, .f32⟩
  | .hbm, ⟨27, _⟩ => ⟨S256x64, .f32⟩
  | .hbm, ⟨28, _⟩ => ⟨S256x64, .f32⟩
  | .hbm, ⟨29, _⟩ => ⟨S1x64, .f32⟩
  | .hbm, ⟨30, _⟩ => ⟨S1x64, .f32⟩
  | .hbm, ⟨31, _⟩ => ⟨S32x1x256, .f32⟩
  | .hbm, ⟨32, _⟩ => ⟨S32x256, .f32⟩
  | .hbm, ⟨33, _⟩ => ⟨S256x256, .f32⟩
  | .hbm, ⟨34, _⟩ => ⟨S32x256, .f32⟩
  | .hbm, ⟨35, _⟩ => ⟨S1x256, .f32⟩
  | .hbm, ⟨36, _⟩ => ⟨S32x256, .f32⟩
  | .hbm, ⟨37, _⟩ => ⟨S32x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S_, .i32⟩
  | .hbm, ⟨44, _⟩ => ⟨S_, .f32⟩
  | .hbm, ⟨45, _⟩ => ⟨S256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S32x256, .f32⟩
  | .hbm, ⟨51, _⟩ => ⟨S32x256, .f32⟩
  | .hbm, ⟨52, _⟩ => ⟨S32x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S32x256, .f32⟩
  | .hbm, ⟨68, _⟩ => ⟨S32x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S32x256, .f32⟩
  | .hbm, ⟨75, _⟩ => ⟨S32x256, .f32⟩
  | .hbm, ⟨76, _⟩ => ⟨S1x256, .f32⟩
  | .hbm, ⟨77, _⟩ => ⟨S32x256, .f32⟩
  | .hbm, ⟨78, _⟩ => ⟨S32x256, .f32⟩
  | .hbm, ⟨79, _⟩ => ⟨S1x256, .f32⟩
  | .hbm, ⟨80, _⟩ => ⟨S32x256, .f32⟩
  | .hbm, ⟨81, _⟩ => ⟨S32x256, .f32⟩
  | .local _ .vmem, ⟨0, _⟩ => ⟨S1x2048x256, .f32⟩
  | .local _ .vmem, ⟨1, _⟩ => ⟨S1x2048x256, .f32⟩
  | .local _ .vmem, ⟨2, _⟩ => ⟨S256x64, .f32⟩
  | .local _ .vmem, ⟨3, _⟩ => ⟨S256x64, .f32⟩
  | .local _ .vmem, ⟨4, _⟩ => ⟨S1x64, .f32⟩
  | .local _ .vmem, ⟨5, _⟩ => ⟨S1x64, .f32⟩
  | .local _ .vmem, ⟨6, _⟩ => ⟨S1x1x256, .f32⟩
  | .local _ .vmem, ⟨7, _⟩ => ⟨S1x1x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_cst_1 : Ref sig .tc := ⟨.hbm, 54, rfl⟩
abbrev main_call2_v8 : Ref sig .tc := ⟨.hbm, 55, rfl⟩
abbrev main_call2_cst_2 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_cst_3 : Ref sig .tc := ⟨.hbm, 60, rfl⟩
abbrev main_call2_v12 : Ref sig .tc := ⟨.hbm, 61, rfl⟩
abbrev main_call2_cst_4 : Ref sig .tc := ⟨.hbm, 62, rfl⟩
abbrev main_call2_call0_v0 : Ref sig .tc := ⟨.hbm, 63, rfl⟩
abbrev main_call2_call0_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_1 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S64x256_S64_d1 : S64x256.ReducesTo [1] S64
  h_S_ : 0 < S_.numel
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S64x256_S256x64_1_0 : S64x256.Transposes [1, 0] S256x64
  shapeCasts_S64_S1x64 : S64.ShapeCasts S1x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  shapeCasts_S2048_S2048x1 : S2048.ShapeCasts S2048x1
  transposes_S2048x1_p1_0_S1x2048 : S2048x1.Transposes [1, 0] S1x2048
  transposes_S2048x64_p1_0_S64x2048 : S2048x64.Transposes [1, 0] S64x2048
  iota_S256x2048_d1_w32 : S256x2048.Iotas .tc 32 [1]
  slices_S2048x64_o0_0_S256x64 : S2048x64.Slices ![0, 0] S256x64
  slices_S2048x1_o0_0_S256x1 : S2048x1.Slices ![0, 0] S256x1
  iota_S256x2048_d0_w32 : S256x2048.Iotas .tc 32 [0]
  broadcasts_S256x1_S256x2048 : S256x1.Broadcasts S256x2048
  broadcasts_S1x2048_S256x2048 : S1x2048.Broadcasts S256x2048
  reduces_S256x256_S256 : S256x256.Reduces [0] S256
  shapeCasts_S256_S1x256 : S256.ShapeCasts S1x256
  slices_S2048x64_o256_0_S256x64 : S2048x64.Slices ![256, 0] S256x64
  slices_S2048x1_o256_0_S256x1 : S2048x1.Slices ![256, 0] S256x1
  slices_S2048x64_o512_0_S256x64 : S2048x64.Slices ![512, 0] S256x64
  slices_S2048x1_o512_0_S256x1 : S2048x1.Slices ![512, 0] S256x1
  slices_S2048x64_o768_0_S256x64 : S2048x64.Slices ![768, 0] S256x64
  slices_S2048x1_o768_0_S256x1 : S2048x1.Slices ![768, 0] S256x1
  slices_S2048x64_o1024_0_S256x64 : S2048x64.Slices ![1024, 0] S256x64
  slices_S2048x1_o1024_0_S256x1 : S2048x1.Slices ![1024, 0] S256x1
  slices_S2048x64_o1280_0_S256x64 : S2048x64.Slices ![1280, 0] S256x64
  slices_S2048x1_o1280_0_S256x1 : S2048x1.Slices ![1280, 0] S256x1
  slices_S2048x64_o1536_0_S256x64 : S2048x64.Slices ![1536, 0] S256x64
  slices_S2048x1_o1536_0_S256x1 : S2048x1.Slices ![1536, 0] S256x1
  slices_S2048x64_o1792_0_S256x64 : S2048x64.Slices ![1792, 0] S256x64
  slices_S2048x1_o1792_0_S256x1 : S2048x1.Slices ![1792, 0] S256x1
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S32x1x256_S32x256 : S32x1x256.ShapeCasts S32x256
  transposes_S256x256_S256x256_1_0 : S256x256.Transposes [1, 0] S256x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S256_d0 : S32x256.ReducesTo [0] S256
  bcast_S_S256 : S_.BroadcastsInDim S256 (![] : Fin 0 → Fin S256.rank)
  bcast_S_S1x256 : S_.BroadcastsInDim S1x256 (![] : Fin 0 → Fin S1x256.rank)
  dot_S2048x256_S256x64_S2048x64_1_0_0_1_n_n_wf : DotDims.WF S2048x256 S256x64 S2048x64 [1] [0] [0] [1] [] []
  dot_S256x64_S64x2048_S256x2048_1_0_0_1_n_n_wf : DotDims.WF S256x64 S64x2048 S256x2048 [1] [0] [0] [1] [] []
  dot_S256x2048_S2048x256_S256x256_1_0_0_1_n_n_wf : DotDims.WF S256x2048 S2048x256 S256x256 [1] [0] [0] [1] [] []
  dot_S32x256_S256x256_S32x256_1_0_0_1_n_n_wf : DotDims.WF S32x256 S256x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x256.size a
  hwx0_0 : ∀ i : grid0.Coords, EltTy.bits .f32 = 32 ∨ (Rect.block (s := S32x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S32x1x256.size a
  hwx0_5 : ∀ i : grid0.Coords, EltTy.bits .f32 = 32 ∨ (Rect.block (s := S32x1x256) S1x1x256.size (cc0_transform_5 i) (hinb0_5 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S64x256 : Shape := ⟨2, ![64, 256]⟩
abbrev S64 : Shape := ⟨1, ![64]⟩
abbrev S256x256 : Shape := ⟨2, ![256, 256]⟩
abbrev S256 : Shape := ⟨1, ![256]⟩
abbrev S_ : Shape := ⟨0, ![]⟩
abbrev S64x1 : Shape := ⟨2, ![64, 1]⟩
abbrev S32x2048x64 : Shape := ⟨3, ![32, 2048, 64]⟩
abbrev S1x1x64 : Shape := ⟨3, ![1, 1, 64]⟩
abbrev S32x2048x2048 : Shape := ⟨3, ![32, 2048, 2048]⟩
abbrev S2048x2048 : Shape := ⟨2, ![2048, 2048]⟩
abbrev S32x2048 : Shape := ⟨2, ![32, 2048]⟩
abbrev S32x1x2048 : Shape := ⟨3, ![32, 1, 2048]⟩
abbrev S32x2048x1 : Shape := ⟨3, ![32, 2048, 1]⟩
abbrev S1x2048x2048 : Shape := ⟨3, ![1, 2048, 2048]⟩
abbrev S32x256 : Shape := ⟨2, ![32, 256]⟩
abbrev S1x256 : Shape := ⟨2, ![1, 256]⟩

abbrev nBuf : Space → Nat
  | .hbm => 129
  | .vmem => 0
  | .smem => 0
  | _ => 0

abbrev hbmTy0_0 (i : Nat) : BufTy := match i % 128 with
  | 0 => ⟨S32x2048x256, .f32⟩
  | 1 => ⟨S64x256, .f32⟩
  | 2 => ⟨S64, .f32⟩
  | 3 => ⟨S64, .f32⟩
  | 4 => ⟨S64x256, .f32⟩
  | 5 => ⟨S64, .f32⟩
  | 6 => ⟨S64, .f32⟩
  | 7 => ⟨S256x256, .f32⟩
  | 8 => ⟨S256, .f32⟩
  | 9 => ⟨S256, .f32⟩
  | 10 => ⟨S256, .f32⟩
  | 11 => ⟨S64x256, .f32⟩
  | 12 => ⟨S_, .f32⟩
  | 13 => ⟨S64, .f32⟩
  | 14 => ⟨S64, .f32⟩
  | 15 => ⟨S64, .f32⟩
  | 16 => ⟨S64x1, .f32⟩
  | 17 => ⟨S64x256, .f32⟩
  | 18 => ⟨S64x256, .f32⟩
  | 19 => ⟨S64x256, .f32⟩
  | 20 => ⟨S_, .f32⟩
  | 21 => ⟨S64, .f32⟩
  | 22 => ⟨S64, .f32⟩
  | 23 => ⟨S64, .f32⟩
  | 24 => ⟨S64x1, .f32⟩
  | 25 => ⟨S64x256, .f32⟩
  | 26 => ⟨S64x256, .f32⟩
  | 27 => ⟨S32x2048x64, .f32⟩
  | 28 => ⟨S1x1x64, .f32⟩
  | 29 => ⟨S32x2048x64, .f32⟩
  | 30 => ⟨S32x2048x64, .f32⟩
  | 31 => ⟨S_, .f32⟩
  | 32 => ⟨S32x2048x64, .f32⟩
  | 33 => ⟨S32x2048x64, .f32⟩
  | 34 => ⟨S32x2048x64, .f32⟩
  | 35 => ⟨S1x1x64, .f32⟩
  | 36 => ⟨S32x2048x64, .f32⟩
  | 37 => ⟨S32x2048x64, .f32⟩
  | 38 => ⟨S_, .f32⟩
  | 39 => ⟨S32x2048x64, .f32⟩
  | 40 => ⟨S32x2048x64, .f32⟩
  | 41 => ⟨S32x2048x2048, .f32⟩
  | 42 => ⟨S2048x2048, .i32⟩
  | 43 => ⟨S2048x2048, .i32⟩
  | 44 => ⟨S2048x2048, .i1⟩
  | 45 => ⟨S32x2048x2048, .i1⟩
  | 46 => ⟨S_, .f32⟩
  | 47 => ⟨S32x2048x2048, .f32⟩
  | 48 => ⟨S32x2048x2048, .f32⟩
  | 49 => ⟨S_, .f32⟩
  | 50 => ⟨S32x2048, .f32⟩
  | 51 => ⟨S_, .f32⟩
  | 52 => ⟨S32x2048, .f32⟩
  | 53 => ⟨S32x2048, .f32⟩
  | 54 => ⟨S32x2048, .f32⟩
  | 55 => ⟨S32x1x2048, .f32⟩
  | 56 => ⟨S32x2048x2048, .f32⟩
  | 57 => ⟨S32x2048x2048, .f32⟩
  | 58 => ⟨S32x2048x1, .f32⟩
  | 59 => ⟨S32x2048x2048, .f32⟩
  | 60 => ⟨S32x2048x2048, .f32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S2048x2048, .i1⟩
  | 67 => ⟨S2048x2048, .f32⟩
  | 68 => ⟨S_, .f32⟩
  | 69 => ⟨S2048x2048, .f32⟩
  | 70 => ⟨S2048x2048, .f32⟩
  | 71 => ⟨S1x2048x2048, .f32⟩
  | 72 => ⟨S32x2048x2048, .f32⟩
  | 73 => ⟨S32x2048x2048, .f32⟩
  | 74 => ⟨S32x2048x256, .f32⟩
  | 75 => ⟨S_, .f32⟩
  | 76 => ⟨S32x256, .f32⟩
  | 77 => ⟨S_, .f32⟩
  | 78 => ⟨S32x256, .f32⟩
  | 79 => ⟨S32x256, .f32⟩
  | 80 => ⟨S256x256, .f32⟩
  | 81 => ⟨S32x256, .f32⟩
  | 82 => ⟨S1x256, .f32⟩
  | 83 => ⟨S32x256, .f32⟩
  | 84 => ⟨S32x256, .f32⟩
  | 85 => ⟨S_, .f32⟩
  | 86 => ⟨S256, .f32⟩
  | 87 => ⟨S_, .f32⟩
  | 88 => ⟨S256, .f32⟩
  | 89 => ⟨S256, .f32⟩
  | 90 => ⟨S_, .i32⟩
  | 91 => ⟨S_, .f32⟩
  | 92 => ⟨S256, .f32⟩
  | 93 => ⟨S1x256, .f32⟩
  | 94 => ⟨S_, .f32⟩
  | 95 => ⟨S1x256, .f32⟩
  | 96 => ⟨S1x256, .f32⟩
  | 97 => ⟨S32x256, .f32⟩
  | 98 => ⟨S32x256, .f32⟩
  | 99 => ⟨S32x256, .f32⟩
  | 100 => ⟨S_, .f32⟩
  | 101 => ⟨S_, .f32⟩
  | 102 => ⟨S_, .f32⟩
  | 103 => ⟨S_, .f32⟩
  | 104 => ⟨S256, .f32⟩
  | 105 => ⟨S256, .f32⟩
  | 106 => ⟨S256, .f32⟩
  | 107 => ⟨S_, .f32⟩
  | 108 => ⟨S_, .i1⟩
  | 109 => ⟨S_, .f32⟩
  | 110 => ⟨S_, .f32⟩
  | 111 => ⟨S256, .f32⟩
  | 112 => ⟨S256, .f32⟩
  | 113 => ⟨S1x256, .f32⟩
  | 114 => ⟨S32x256, .f32⟩
  | 115 => ⟨S32x256, .f32⟩
  | 116 => ⟨S_, .f32⟩
  | 117 => ⟨S256, .f32⟩
  | 118 => ⟨S256, .f32⟩
  | 119 => ⟨S256, .f32⟩
  | 120 => ⟨S1x256, .f32⟩
  | 121 => ⟨S32x256, .f32⟩
  | 122 => ⟨S32x256, .f32⟩
  | 123 => ⟨S1x256, .f32⟩
  | 124 => ⟨S32x256, .f32⟩
  | 125 => ⟨S32x256, .f32⟩
  | 126 => ⟨S1x256, .f32⟩
  | 127 => ⟨S32x256, .f32⟩
  | _ => ⟨S32x2048x256, .f32⟩

abbrev hbmTy0_1 (i : Nat) : BufTy := match i % 128 with
  | 0 => ⟨S32x256, .f32⟩
  | _ => ⟨S32x2048x256, .f32⟩

abbrev hbmTy (i : Nat) : BufTy := match i / 128 with
  | 0 => hbmTy0_0 i
  | 1 => hbmTy0_1 i
  | _ => ⟨S32x2048x256, .f32⟩

abbrev bufTy : (tb : Table) → Fin (tcTables nBuf tb) → BufTy
  | .hbm, ⟨i, _⟩ => hbmTy i
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call3_cst : Ref sig .tc := ⟨.hbm, 38, rfl⟩
abbrev main_call3_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_cst_0 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_c_7 : Ref sig .tc := ⟨.hbm, 90, rfl⟩
abbrev main_call4_cst : Ref sig .tc := ⟨.hbm, 91, rfl⟩
abbrev main_call4_v0 : Ref sig .tc := ⟨.hbm, 92, rfl⟩
abbrev main_call4_v1 : Ref sig .tc := ⟨.hbm, 93, rfl⟩
abbrev main_call4_cst_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_cst_1 : Ref sig .tc := ⟨.hbm, 101, rfl⟩
abbrev main_call4_v8 : Ref sig .tc := ⟨.hbm, 102, rfl⟩
abbrev main_call4_cst_2 : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_cst_3 : Ref sig .tc := ⟨.hbm, 107, rfl⟩
abbrev main_call4_v12 : Ref sig .tc := ⟨.hbm, 108, rfl⟩
abbrev main_call4_cst_4 : Ref sig .tc := ⟨.hbm, 109, rfl⟩
abbrev main_call4_call0_v0 : Ref sig .tc := ⟨.hbm, 110, rfl⟩
abbrev main_call4_call0_v1 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_8 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩

abbrev nD : Nat := 1
abbrev τ : Topo := Topo.v7x

variable {F : FTy → Type} [FloatOps F]

class Facts₀ : Prop where
  reducesTo_S64x256_S64_d1 : S64x256.ReducesTo [1] S64
  h_S_ : 0 < S_.numel
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S64_S1x1x64_2 : S64.BroadcastsInDim S1x1x64 (![2] : Fin 1 → Fin S1x1x64.rank)
  bcast_S1x1x64_S32x2048x64_0_1_2 : S1x1x64.BroadcastsInDim S32x2048x64 (![0, 1, 2] : Fin 3 → Fin S32x2048x64.rank)
  bcast_S_S32x2048x64 : S_.BroadcastsInDim S32x2048x64 (![] : Fin 0 → Fin S32x2048x64.rank)
  bcast_S2048x2048_S32x2048x2048_1_2 : S2048x2048.BroadcastsInDim S32x2048x2048 (![1, 2] : Fin 2 → Fin S32x2048x2048.rank)
  bcast_S_S32x2048x2048 : S_.BroadcastsInDim S32x2048x2048 (![] : Fin 0 → Fin S32x2048x2048.rank)
  reducesTo_S32x2048x2048_S32x2048_d1 : S32x2048x2048.ReducesTo [1] S32x2048
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x2048x2048_0_1_2 : S32x1x2048.BroadcastsInDim S32x2048x2048 (![0, 1, 2] : Fin 3 → Fin S32x2048x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  reducesTo_S32x2048x256_S32x256_d1 : S32x2048x256.ReducesTo [1] S32x256
  bcast_S_S32x256 : S_.BroadcastsInDim S32x256 (![] : Fin 0 → Fin S32x256.rank)
  transposes_S256x256_S256x256_1_0 : S256x256.Transposes [1, 0] S256x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S256_d0 : S32x256.ReducesTo [0] S256
  bcast_S_S256 : S_.BroadcastsInDim S256 (![] : Fin 0 → Fin S256.rank)
  bcast_S_S1x256 : S_.BroadcastsInDim S1x256 (![] : Fin 0 → Fin S1x256.rank)
  dot_S32x2048x256_S64x256_S32x2048x64_2_1_01_0_n_n_wf : DotDims.WF S32x2048x256 S64x256 S32x2048x64 [2] [1] [0, 1] [0] [] []
  dot_S32x2048x64_S32x2048x64_S32x2048x2048_2_2_1_1_0_0_wf : DotDims.WF S32x2048x64 S32x2048x64 S32x2048x2048 [2] [2] [1] [1] [0] [0]
  dot_S32x2048x2048_S32x2048x256_S32x2048x256_2_1_1_2_0_0_wf : DotDims.WF S32x2048x2048 S32x2048x256 S32x2048x256 [2] [1] [1] [2] [0] [0]
  dot_S32x256_S256x256_S32x256_1_0_0_1_n_n_wf : DotDims.WF S32x256 S256x256 S32x256 [1] [0] [0] [1] [] []

variable [Facts₀]

def dot_S32x2048x256_S64x256_S32x2048x64_2_1_01_0_n_n : DotDims S32x2048x256 S64x256 S32x2048x64 where
  lhsContracting := [2]
  rhsContracting := [1]
  lhsNonContracting := [0, 1]
  rhsNonContracting := [0]
  lhsBatch := []
  rhsBatch := []
  wf := dot_S32x2048x256_S64x256_S32x2048x64_2_1_01_0_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x256_S32x2048x256_2_1_1_2_0_0 : DotDims S32x2048x2048 S32x2048x256 S32x2048x256 where
  lhsContracting := [2]
  rhsContracting := [1]
  lhsNonContracting := [1]
  rhsNonContracting := [2]
  lhsBatch := [0]
  rhsBatch := [0]
  wf := dot_S32x2048x2048_S32x2048x256_S32x2048x256_2_1_1_2_0_0_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf

class Facts : Prop extends Facts₀ where

variable [Facts]
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.Spec.lean ====
/-
  The function both programs compute, per batch entry, on the extended reals.

  For one batch entry with rows v n (n < 2048, 256 features each), two weight matrices w1, w2 (64 x 256) and two bias
  vectors b1, b2 (64):
    R n l = max (sum_k v n k * w1 l k + b1 l) 0,     L n l = max (sum_k v n k * w2 l k + b2 l) 0     (rectified projections)
    U n m = sum_l L n l * R m l                                                        (the rank-64 product)
    d n   = rsqrt (U n n + eps)                                                         (from the diagonal)
    New n m = (1 + [n = m]) - (d n * U n m) * d m
    vfin q = (sum_n sum_m New n m * v m q) / 2048.
  A range of 2048 rows is 8 stretches of 256 rows, and a sum over the rows is the sum of the stretches' sums taken in
  order from zero; the diagonal of a matrix is picked out of a column by a sum of selections; and the two orders in which
  the normalisers multiply U n m agree, by commutativity and associativity of the product alone.
-/
import Idealize.ShloMosaic.PureOps.Ideal
import Idealize.ShloMosaic.PureOps.Ideal.Laws
import proofs.«144438_j52733608460806_1_alg».proof.Proof.LibBlocks

noncomputable section

namespace Cert.UnCorr

open Idealize.ShloMosaic
open scoped BigOperators

/-- A rectified projection of the rows. -/
def feat (v : Fin 2048 → Fin 256 → EReal) (w : Fin 64 → Fin 256 → EReal) (b : Fin 64 → EReal) (n : Fin 2048) (l : Fin 64) : EReal :=
  max (∑ k : Fin 256, v n k * w l k + b l) 0

/-- The rank-64 product of the two projections. -/
def unc (L R : Fin 2048 → Fin 64 → EReal) (n m : Fin 2048) : EReal := ∑ l : Fin 64, L n l * R m l

/-- The normaliser of row n: the inverse square root of the product's diagonal entry plus a constant. -/
def dr (L R : Fin 2048 → Fin 64 → EReal) (n : Fin 2048) : EReal :=
  Ideal.rsqrt (unc L R n n + Ideal.ofBits .f32 0x358637BD#32)

/-- The identity matrix's entry. -/
def eyeW (n m : Fin 2048) : EReal := if n = m then 1 else 0

/-- One plus the identity less the normalised product. -/
def newW (L R : Fin 2048 → Fin 64 → EReal) (n m : Fin 2048) : EReal :=
  (1 + eyeW n m) - (dr L R n * unc L R n m) * dr L R m

/-- The mean over the rows n of (sum_m New n m * v m q). -/
def vfin (v : Fin 2048 → Fin 256 → EReal) (w1 : Fin 64 → Fin 256 → EReal) (b1 : Fin 64 → EReal)
    (w2 : Fin 64 → Fin 256 → EReal) (b2 : Fin 64 → EReal) (q : Fin 256) : EReal :=
  Ideal.div (∑ n : Fin 2048, ∑ m : Fin 2048, newW (feat v w2 b2) (feat v w1 b1) n m * v m q)
    (Ideal.ofBits .f32 0x45000000#32)

/-- Row r of stretch i, the 2048 rows cut into 8 stretches of 256. -/
def row (i : Fin 8) (r : Fin 256) : Fin 2048 := ⟨i.val * 256 + r.val, by omega⟩

theorem row_val (i : Fin 8) (r : Fin 256) : (row i r).val = i.val * 256 + r.val := rfl

/-- A sum over the rows is the sum over the stretches of each stretch's sum. -/
theorem sum_rows {M : Type*} [AddCommMonoid M] (f : Fin 2048 → M) :
    ∑ n, f n = ∑ i : Fin 8, ∑ r : Fin 256, f (row i r) :=
  Cert.LibBlocks.sum_entries (A := 8) (B := 256) f

/-- The eight stretches' sums added one after the other from zero give the sum over all rows. -/
theorem fold_rows (f : Fin 2048 → EReal) :
    0 + (∑ r, f (row 0 r)) + (∑ r, f (row 1 r)) + (∑ r, f (row 2 r)) + (∑ r, f (row 3 r)) + (∑ r, f (row 4 r))
      + (∑ r, f (row 5 r)) + (∑ r, f (row 6 r)) + (∑ r, f (row 7 r)) = ∑ n, f n := by
  rw [sum_rows, Fin.sum_univ_eight, zero_add]

/-- The diagonal entry picked out of column m by selections. -/
theorem diag_pick (U : Fin 2048 → Fin 2048 → EReal) (m : Fin 2048) :
    ∑ n : Fin 2048, (if n = m then U n m else 0) = U m m := by
  rw [Finset.sum_ite_eq' Finset.univ m (fun n => U n m)]
  simp

/-- The two orders of the normalisers around an entry of the product. -/
theorem corr_comm (a u b : EReal) : (b * u) * a = (a * u) * b := by
  rw [mul_comm b u, mul_assoc, mul_comm b a, ← mul_assoc, mul_comm u a]

end Cert.UnCorr

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.KerFront.lean ====
/-
  The first part of the kernel body at coordinates, on the extended reals: from one block of rows v (2048 x 256) and the
  transposed weights, the two rectified projections R (from the first weight window) and L (from the second), the
  normaliser d n = rsqrt (sum_l L n l * R n l + eps) as a column and as a row, and the two operands of the block
  products: L itself and R transposed. A change of float format is the identity here.
-/
import proofs.«144438_j52733608460806_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«144438_j52733608460806_1_alg».proof.Proof.Spec
import proofs.«144438_j52733608460806_1_alg».proof.Proof.LibPlainDot
import proofs.«144438_j52733608460806_1_alg».proof.Proof.LibRows
import proofs.«144438_j52733608460806_1_alg».proof.Proof.LibLayout

noncomputable section

namespace Cert.KernelIdeal.Body

open Cert.KernelIdeal Cert.KernelIdeal.Gen Idealize.ShloMosaic Idealize.ShloMosaic.ValueIdx Cert.UnCorr
open scoped BigOperators

/-- The block of rows as a function of row and feature. -/
abbrev rowsOf (x0 : Vec Ideal S1x2048x256 .f32) : Fin 2048 → Fin 256 → EReal := fun n k => x0 (ix3 0 n k)
/-- A transposed weight window read as weights (l, k). -/
abbrev wOf (x : Vec Ideal S256x64 .f32) : Fin 64 → Fin 256 → EReal := fun l k => x (ix2 k l)
/-- A bias row read as a vector. -/
abbrev bOf (x : Vec Ideal S1x64 .f32) : Fin 64 → EReal := fun l => x (ix2 0 l)

variable (x0 : Vec Ideal S1x2048x256 .f32) (x1 x2 : Vec Ideal S256x64 .f32) (x3 x4 : Vec Ideal S1x64 .f32)

theorem pay2_apply (n : Fin 2048) (k : Fin 256) : k0_pay2 (F := Ideal) x0 (ix2 n k) = x0 (ix3 0 n k) := by
  unfold k0_pay2
  show shapeCast S2048x256 x0 shapeCasts_S1x2048x256_S2048x256 (ix2 n k) = _
  exact shapeCast_1ab_ab_apply x0 _ n k

/-- A projection: the rows times the weights plus the bias, rectified. -/
theorem proj_apply (x : Vec Ideal S256x64 .f32) (xb : Vec Ideal S1x64 .f32) (n : Fin 2048) (l : Fin 64) :
    maximumf (addf (matmul dot_S2048x256_S256x64_S2048x64_1_0_0_1_n_n none (k0_pay2 (F := Ideal) x0)
        (truncf .bf16 (shapeCast S256x64 x shapeCasts_S256x64_S256x64) bitsLt_bf16_f32) (constant S2048x64 .f32 0x00000000#32))
        (broadcastTo S2048x64 (shapeCast S1x64 xb shapeCasts_S1x64_S1x64) broadcasts_S1x64_S2048x64))
      (broadcast S2048x64 (Scalar.ofBits (F := Ideal) .f32 0x00000000#32)) (ix2 n l)
      = feat (rowsOf x0) (wOf x) (bOf xb) n l := by
  unfold feat
  show max (matmul dot_S2048x256_S256x64_S2048x64_1_0_0_1_n_n none (k0_pay2 (F := Ideal) x0)
        (truncf .bf16 (shapeCast S256x64 x shapeCasts_S256x64_S256x64) bitsLt_bf16_f32) (constant S2048x64 .f32 0x00000000#32) (ix2 n l)
      + broadcastTo S2048x64 (shapeCast S1x64 xb shapeCasts_S1x64_S1x64) broadcasts_S1x64_S2048x64 (ix2 n l))
      (Ideal.ofBits .f32 0x00000000#32) = _
  rw [Ideal.ofBits_zero_f32]
  refine congrArg₂ (fun a b => max (a + b) 0) ?_ ?_
  · refine (Cert.LibPlainDot.matmul_plain_apply dot_S2048x256_S256x64_S2048x64_1_0_0_1_n_n rfl rfl rfl rfl rfl rfl none
      (k0_pay2 (F := Ideal) x0) (truncf .bf16 (shapeCast S256x64 x shapeCasts_S256x64_S256x64) bitsLt_bf16_f32) n l).trans ?_
    refine Finset.sum_congr rfl fun k _ => ?_
    rw [pay2_apply]
    show x0 (ix3 0 n k) * shapeCast S256x64 x shapeCasts_S256x64_S256x64 (ix2 k l) = _
    rw [shapeCast_self]
  · refine (broadcastTo_1b_ab_apply _ _ n l).trans ?_
    rw [shapeCast_self]

theorem pay3_apply (n : Fin 2048) (l : Fin 64) :
    k0_pay3 (F := Ideal) x0 x1 x3 (ix2 n l) = feat (rowsOf x0) (wOf x1) (bOf x3) n l := by
  unfold k0_pay3
  exact proj_apply x0 x1 x3 n l

theorem pay4_apply (n : Fin 2048) (l : Fin 64) :
    k0_pay4 (F := Ideal) x0 x2 x4 (ix2 n l) = feat (rowsOf x0) (wOf x2) (bOf x4) n l := by
  unfold k0_pay4
  exact proj_apply x0 x2 x4 n l

/-- The left and right projections of the specification. -/
abbrev Lf := feat (rowsOf x0) (wOf x2) (bOf x4)
abbrev Rf := feat (rowsOf x0) (wOf x1) (bOf x3)

/-- The normaliser as a column. -/
theorem pay5_apply (n : Fin 2048) :
    k0_pay5 (F := Ideal) x0 x1 x2 x3 x4 (ix2 n 0) = dr (Lf x0 x2 x4) (Rf x0 x1 x3) n := by
  unfold k0_pay5
  show Ideal.rsqrt ((shapeCast S2048x1 _ shapeCasts_S2048_S2048x1) (ix2 n 0) + Ideal.ofBits .f32 0x358637BD#32) = _
  unfold dr unc
  refine congrArg (fun s => Ideal.rsqrt (s + Ideal.ofBits .f32 0x358637BD#32)) ?_
  refine (shapeCast_a_a1_apply _ _ n 0).trans ?_
  refine (rowSum_apply _ _ _ _ _ n).trans ?_
  refine Finset.sum_congr rfl fun l _ => ?_
  rw [mulf_apply, pay4_apply, pay3_apply]

/-- The normaliser as a row. -/
theorem pay6_apply (m : Fin 2048) :
    k0_pay6 (F := Ideal) x0 x1 x2 x3 x4 (ix2 0 m) = dr (Lf x0 x2 x4) (Rf x0 x1 x3) m := by
  unfold k0_pay6
  exact (transpose_ix2_apply _ _ 0 m).trans (pay5_apply x0 x1 x2 x3 x4 m)

/-- The left projection, the left operand of the block products. -/
theorem pay7_apply (n : Fin 2048) (l : Fin 64) : k0_pay7 (F := Ideal) x0 x2 x4 (ix2 n l) = Lf x0 x2 x4 n l := by
  unfold k0_pay7
  show k0_pay4 x0 x2 x4 (ix2 n l) = _
  exact pay4_apply x0 x2 x4 n l

/-- The right projection transposed, the right operand of the block products. -/
theorem pay8_apply (l : Fin 64) (m : Fin 2048) : k0_pay8 (F := Ideal) x0 x1 x3 (ix2 l m) = Rf x0 x1 x3 m l := by
  unfold k0_pay8
  refine (transpose_ix2_apply _ _ l m).trans ?_
  show k0_pay3 x0 x1 x3 (ix2 m l) = _
  exact pay3_apply x0 x1 x3 m l

end Cert.KernelIdeal.Body

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibSelectBit.lean ====
/-
  A comparison bit chosen as a float, and a comparison with a word moved by an offset.

  Three small facts for kernels that build a mask or a one-hot row tile by tile:
  * comparing a place `q` with a 32-bit word moved down by an offset is comparing the word with `offset + q`
    (subtracting a word is a bijection of the words modulo 2^32: no range is asked of anything);
  * the f32 word `0x3F800000` is the number one at the ideal reading;
  * `select` on a one-bit condition between the f32 words of one and zero is the condition read as a number, which is
    how a host `convert` of the same bit (an unsigned integer to float) reads.
-/
import Idealize.ShloMosaic.PureOps.Ideal
import Idealize.ShloMosaic.PureOps.Ideal.Laws

noncomputable section

namespace Cert.LibSelectBit

open Idealize.ShloMosaic

/-- Comparing a place `q` with a word `x` moved down by `off` is comparing `x` with `off + q`, for words of any width:
    subtraction of a word is a bijection of the words. -/
theorem cmpi_eq_moved {w : Nat} (x off q : BitVec w) :
    IntOp.cmpi .eq q (IntOp.subi x off) = IntOp.cmpi .eq x (off + q) := by
  unfold IntOp.cmpi IntOp.subi
  refine congrArg BitVec.ofBool ?_
  show (q == x - off) = (x == off + q)
  rw [Bool.eq_iff_iff, beq_iff_eq, beq_iff_eq]
  constructor
  · intro h
    rw [h, BitVec.add_comm, BitVec.sub_add_cancel]
  · intro h
    rw [h, BitVec.add_comm, BitVec.add_sub_cancel]

/-- The float word `0x3F800000` is the number one. -/
theorem ofBits_one_f32 : Ideal.ofBits .f32 0x3F800000#32 = 1 := by
  simp [Ideal.ofBits, Ideal.ieee, -EReal.coe_mul]; norm_num

/-- Choosing between the float words of one and zero on a bit is reading the bit as a number (the unsigned
    integer-to-float conversion of the bit). -/
theorem select_one_zero (b : BitVec 1) :
    Scalar.select b (Scalar.ofBits (F := Ideal) .f32 0x3F800000#32) (Scalar.ofBits (F := Ideal) .f32 0x00000000#32)
      = FloatOps.uitofp (F := Ideal) .f32 b := by
  rcases BitVec.eq_zero_or_eq_one b with h | h
  · subst h
    show Ideal.ofBits .f32 0x00000000#32 = (((0#1 : BitVec 1).toNat : ℝ) : EReal)
    rw [Ideal.ofBits_zero_f32]; simp
  · subst h
    show Ideal.ofBits .f32 0x3F800000#32 = (((1#1 : BitVec 1).toNat : ℝ) : EReal)
    rw [ofBits_one_f32]; simp

end Cert.LibSelectBit

end
-- ==== Proof.KerBlock.lean ====
/-
  One block of 256 rows of the kernel body at coordinates, on the extended reals. From the block's normalisers d (a
  column), its rows u of the rank-64 product (256 x 2048), its rows eye of the identity matrix, the normalisers of all
  rows as a row, and the block of features v, the block forms New r m = (1 + eye r m) - (d r * u r m) * d m, multiplies it
  by v and sums over its 256 rows: entry q of the result is sum_r sum_m New r m * v m q.
  The rows of the identity come from comparing a row number moved by the block's offset with the column number.
-/
import proofs.«144438_j52733608460806_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«144438_j52733608460806_1_alg».proof.Proof.Spec
import proofs.«144438_j52733608460806_1_alg».proof.Proof.LibPlainDot
import proofs.«144438_j52733608460806_1_alg».proof.Proof.LibCols
import proofs.«144438_j52733608460806_1_alg».proof.Proof.LibLayout
import proofs.«144438_j52733608460806_1_alg».proof.Proof.LibSelectBit

noncomputable section

namespace Cert.KernelIdeal.Body

open Cert.KernelIdeal Cert.KernelIdeal.Gen Idealize.ShloMosaic Idealize.ShloMosaic.ValueIdx Cert.UnCorr
open scoped BigOperators

/-- One block's contribution to the sum over rows. -/
def blk (drb : FVec Ideal S256x1 .f32) (u : FVec Ideal S256x2048 .f32) (eye : FVec Ideal S256x2048 .f32)
    (drow : FVec Ideal S1x2048 .f32) (vb : FVec Ideal S2048x256 .bf16) : FVec Ideal S1x256 .f32 :=
  shapeCast S1x256 (multiReduction .add [0] S256
    (matmul dot_S256x2048_S2048x256_S256x256_1_0_0_1_n_n none
      (truncf .bf16 (subf (addf (broadcast S256x2048 (Scalar.ofBits (F := Ideal) .f32 0x3F800000#32)) eye)
        (mulf (mulf (broadcastTo S256x2048 drb broadcasts_S256x1_S256x2048) u)
          (broadcastTo S256x2048 drow broadcasts_S1x2048_S256x2048))) bitsLt_bf16_f32)
      vb (constant S256x256 .f32 0x00000000#32))
    0x00000000#32 reduces_S256x256_S256 (.inl rfl) rfl) shapeCasts_S256_S1x256

theorem blk_apply (drb : FVec Ideal S256x1 .f32) (u : FVec Ideal S256x2048 .f32) (eye : FVec Ideal S256x2048 .f32)
    (drow : FVec Ideal S1x2048 .f32) (vb : FVec Ideal S2048x256 .bf16) (q : Fin 256) :
    blk drb u eye drow vb (ix2 0 q)
      = ∑ r : Fin 256, ∑ m : Fin 2048,
          ((1 + eye (ix2 r m)) - (drb (ix2 r 0) * u (ix2 r m)) * drow (ix2 0 m)) * vb (ix2 m q) := by
  unfold blk
  refine (shapeCast_a_1a_apply _ _ 0 q).trans ?_
  refine (colSum_apply _ _ _ _ _ q).trans ?_
  refine Finset.sum_congr rfl fun r _ => ?_
  refine (Cert.LibPlainDot.matmul_plain_apply dot_S256x2048_S2048x256_S256x256_1_0_0_1_n_n rfl rfl rfl rfl rfl rfl none _ vb r q).trans ?_
  refine Finset.sum_congr rfl fun m _ => ?_
  refine congrArg (· * vb (ix2 m q)) ?_
  show (Ideal.ofBits .f32 0x3F800000#32 + eye (ix2 r m))
      - (broadcastTo S256x2048 drb broadcasts_S256x1_S256x2048 (ix2 r m) * u (ix2 r m))
        * broadcastTo S256x2048 drow broadcasts_S1x2048_S256x2048 (ix2 r m) = _
  rw [Cert.LibSelectBit.ofBits_one_f32, broadcastTo_a1_ab_apply, broadcastTo_1b_ab_apply]

/-- The row numbers of a block: the block's offset plus the row number inside the block. -/
def ridxAt (o : BitVec 32) : IVec S256x2048 32 :=
  addi (broadcast S256x2048 o) (iota .tc S256x2048 32 [0] iota_S256x2048_d0_w32)

/-- A block's rows of the identity matrix, from its row numbers. -/
def eyeBlk (ridx : IVec S256x2048 32) : FVec Ideal S256x2048 .f32 :=
  select (cmpi .eq ridx (iota .tc S256x2048 32 [1] iota_S256x2048_d1_w32))
    (broadcast S256x2048 (Scalar.ofBits (F := Ideal) .f32 0x3F800000#32))
    (broadcast S256x2048 (Scalar.ofBits (F := Ideal) .f32 0x00000000#32))

theorem eyeBlk_apply (o : ℕ) (r : Fin 256) (m n : Fin 2048) (hn : n.val = o + r.val) :
    eyeBlk (ridxAt (BitVec.ofNat 32 o)) (ix2 r m) = eyeW n m := by
  unfold eyeBlk ridxAt eyeW
  show Scalar.select (IntOp.cmpi .eq (IntOp.addi (BitVec.ofNat 32 o) (iota .tc S256x2048 32 [0] iota_S256x2048_d0_w32 (ix2 r m)))
      (iota .tc S256x2048 32 [1] iota_S256x2048_d1_w32 (ix2 r m))) (Ideal.ofBits .f32 0x3F800000#32) (Ideal.ofBits .f32 0x00000000#32) = _
  rw [iota_single_apply, iota_single_apply, Cert.LibSelectBit.ofBits_one_f32, Ideal.ofBits_zero_f32]
  show Scalar.select (IntOp.cmpi .eq (IntOp.addi (BitVec.ofNat 32 o) (BitVec.ofNat 32 r.val)) (BitVec.ofNat 32 m.val)) (1 : EReal) 0 = _
  have hr := r.isLt
  have hm := m.isLt
  have hnl := n.isLt
  have key : (BitVec.ofNat 32 o + BitVec.ofNat 32 r.val == BitVec.ofNat 32 m.val) = decide (n = m) := by
    rw [← BitVec.ofNat_add, Bool.eq_iff_iff, beq_iff_eq, decide_eq_true_iff]
    constructor
    · intro h
      have h2 := congrArg BitVec.toNat h
      simp only [BitVec.toNat_ofNat] at h2
      rw [Nat.mod_eq_of_lt (by omega), Nat.mod_eq_of_lt (by omega)] at h2
      exact Fin.ext (by omega)
    · intro h
      subst h
      rw [hn]
  unfold IntOp.cmpi IntOp.addi Scalar.select
  show (if BitVec.ofBool (BitVec.ofNat 32 o + BitVec.ofNat 32 r.val == BitVec.ofNat 32 m.val) = 1 then (1 : EReal) else 0) = _
  rw [key]
  by_cases h : n = m
  · simp [h]
  · simp [h]

end Cert.KernelIdeal.Body

end
-- ==== Proof.KerBody.lean ====
/-
  The whole kernel body at coordinates, on the extended reals. The body cuts the 2048 rows into eight blocks of 256; each
  block's contribution is the one-block term at the block's offset, and the contributions are added one after the other
  from zero and divided by 2048. Entry q of the result is the specification's vfin at q: row r of the block at offset o is
  row o + r of the whole, its normaliser, its row of the rank-64 product and its row of the identity are those of row
  o + r, and the eight partial sums added in order from zero are the sum over all rows.
-/
import proofs.«144438_j52733608460806_1_alg».proof.Proof.KerFront
import proofs.«144438_j52733608460806_1_alg».proof.Proof.KerBlock

noncomputable section

namespace Cert.KernelIdeal.Body

open Cert.KernelIdeal Cert.KernelIdeal.Gen Idealize.ShloMosaic Idealize.ShloMosaic.ValueIdx Cert.UnCorr
open scoped BigOperators

variable (x0 : Vec Ideal S1x2048x256 .f32) (x1 x2 : Vec Ideal S256x64 .f32) (x3 x4 : Vec Ideal S1x64 .f32)

/-- The column numbers. -/
abbrev IOTA1 : IVec S256x2048 32 := iota .tc S256x2048 32 [1] iota_S256x2048_d1_w32

/-- A block's rows of the rank-64 product: rows o .. o + 255 of the left projection times the right projection transposed. -/
theorem uAt_apply (o : ℕ) (h2 : S2048x64.Slices ![o, 0] S256x64) (r : Fin 256) (m n : Fin 2048) (hk : n.val = o + r.val) :
    matmul dot_S256x64_S64x2048_S256x2048_1_0_0_1_n_n none
        (extractStridedSlice S256x64 ![o, 0] (k0_pay7 (F := Ideal) x0 x2 x4) h2) (k0_pay8 (F := Ideal) x0 x1 x3)
        (constant S256x2048 .f32 0x00000000#32) (ix2 r m)
      = unc (Lf x0 x2 x4) (Rf x0 x1 x3) n m := by
  refine (Cert.LibPlainDot.matmul_plain_apply dot_S256x64_S64x2048_S256x2048_1_0_0_1_n_n rfl rfl rfl rfl rfl rfl none _ _ r m).trans ?_
  unfold unc
  refine Finset.sum_congr rfl fun l _ => ?_
  rw [slice2_axis0_apply o _ h2 r l n hk, pay7_apply, pay8_apply]

/-- The block of rows o .. o + 255. -/
def blkAt (o : ℕ) (h1 : S2048x1.Slices ![o, 0] S256x1) (h2 : S2048x64.Slices ![o, 0] S256x64) : FVec Ideal S1x256 .f32 :=
  blk (extractStridedSlice S256x1 ![o, 0] (k0_pay5 (F := Ideal) x0 x1 x2 x3 x4) h1)
    (matmul dot_S256x64_S64x2048_S256x2048_1_0_0_1_n_n none
      (extractStridedSlice S256x64 ![o, 0] (k0_pay7 (F := Ideal) x0 x2 x4) h2) (k0_pay8 (F := Ideal) x0 x1 x3) (constant S256x2048 .f32 0x00000000#32))
    (eyeBlk (ridxAt (BitVec.ofNat 32 o))) (k0_pay6 (F := Ideal) x0 x1 x2 x3 x4) (k0_pay2 (F := Ideal) x0)

/-- Block i at entry q: the sum over its rows n = 256 i + r of sum_m New n m * v m q. -/
theorem blkAt_apply (o : ℕ) (i : Fin 8) (ho : o = i.val * 256) (h1 : S2048x1.Slices ![o, 0] S256x1)
    (h2 : S2048x64.Slices ![o, 0] S256x64) (q : Fin 256) :
    blkAt x0 x1 x2 x3 x4 o h1 h2 (ix2 0 q)
      = ∑ r : Fin 256, ∑ m : Fin 2048, newW (Lf x0 x2 x4) (Rf x0 x1 x3) (row i r) m * rowsOf x0 m q := by
  unfold blkAt
  rw [blk_apply]
  refine Finset.sum_congr rfl fun r _ => Finset.sum_congr rfl fun m _ => ?_
  have hk : (row i r).val = o + r.val := by rw [row_val, ho]
  rw [eyeBlk_apply o r m (row i r) hk, slice2_axis0_apply o _ h1 r 0 (row i r) hk, pay5_apply, pay6_apply, pay2_apply,
    uAt_apply x0 x1 x2 x3 x4 o h2 r m (row i r) hk]
  rfl

/-- The first two blocks. -/
theorem pay12_eq (acc : FVec Ideal S1x256 .f32) :
    k0_pay12 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 acc (k0_pay10 (F := Ideal) x0 x1 x2 x3 x4) (k0_pay11 (F := Ideal) x0 x1 x2 x3 x4) (iota .tc S256x2048 32 [0] iota_S256x2048_d0_w32) 0#32
      = addf (addf acc (blkAt x0 x1 x2 x3 x4 0 slices_S2048x1_o0_0_S256x1 slices_S2048x64_o0_0_S256x64)) (blkAt x0 x1 x2 x3 x4 256 slices_S2048x1_o256_0_S256x1 slices_S2048x64_o256_0_S256x64) := rfl

/-- The third and fourth blocks. -/
theorem pay16_eq (acc : FVec Ideal S1x256 .f32) :
    k0_pay16 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 acc (k0_pay13 (k0_pay5 (F := Ideal) x0 x1 x2 x3 x4)) (k0_pay14 (k0_pay7 (F := Ideal) x0 x2 x4) (k0_pay8 (F := Ideal) x0 x1 x3)) k0_pay15
      = addf (addf acc (blkAt x0 x1 x2 x3 x4 512 slices_S2048x1_o512_0_S256x1 slices_S2048x64_o512_0_S256x64)) (blkAt x0 x1 x2 x3 x4 768 slices_S2048x1_o768_0_S256x1 slices_S2048x64_o768_0_S256x64) := rfl

/-- The fifth and sixth blocks. -/
theorem pay20_eq (acc : FVec Ideal S1x256 .f32) :
    k0_pay20 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 acc (k0_pay17 (k0_pay5 (F := Ideal) x0 x1 x2 x3 x4)) (k0_pay18 (k0_pay7 (F := Ideal) x0 x2 x4) (k0_pay8 (F := Ideal) x0 x1 x3)) (k0_pay19 IOTA1) (Scalar.ofBits (F := Ideal) .f32 0x3F800000#32)
      = addf (addf acc (blkAt x0 x1 x2 x3 x4 1024 slices_S2048x1_o1024_0_S256x1 slices_S2048x64_o1024_0_S256x64)) (blkAt x0 x1 x2 x3 x4 1280 slices_S2048x1_o1280_0_S256x1 slices_S2048x64_o1280_0_S256x64) := rfl

/-- The last two blocks and the division. -/
theorem pay1_eq (acc : FVec Ideal S1x256 .f32) :
    k0_pay1 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 acc (k0_pay21 (k0_pay5 (F := Ideal) x0 x1 x2 x3 x4)) (k0_pay22 (k0_pay7 (F := Ideal) x0 x2 x4) (k0_pay8 (F := Ideal) x0 x1 x3)) (k0_pay23 IOTA1) (Scalar.ofBits (F := Ideal) .f32 0x00000000#32) (k0_pay24 (F := Ideal))
      = shapeCast S1x1x256 (divf (addf (addf acc (blkAt x0 x1 x2 x3 x4 1536 slices_S2048x1_o1536_0_S256x1 slices_S2048x64_o1536_0_S256x64)) (blkAt x0 x1 x2 x3 x4 1792 slices_S2048x1_o1792_0_S256x1 slices_S2048x64_o1792_0_S256x64)) (broadcast S1x256 (Scalar.ofBits (F := Ideal) .f32 0x45000000#32))) shapeCasts_S1x256_S1x1x256 := rfl

/-- The body's result as the eight blocks added in order from zero, divided by 2048. -/
theorem pay_chain :
    k0_pay1 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay20 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay16 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay12 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay9 (F := Ideal)) (k0_pay10 (F := Ideal) x0 x1 x2 x3 x4) (k0_pay11 (F := Ideal) x0 x1 x2 x3 x4) (iota .tc S256x2048 32 [0] iota_S256x2048_d0_w32) 0#32) (k0_pay13 (k0_pay5 (F := Ideal) x0 x1 x2 x3 x4)) (k0_pay14 (k0_pay7 (F := Ideal) x0 x2 x4) (k0_pay8 (F := Ideal) x0 x1 x3)) k0_pay15) (k0_pay17 (k0_pay5 (F := Ideal) x0 x1 x2 x3 x4)) (k0_pay18 (k0_pay7 (F := Ideal) x0 x2 x4) (k0_pay8 (F := Ideal) x0 x1 x3)) (k0_pay19 IOTA1) (Scalar.ofBits (F := Ideal) .f32 0x3F800000#32)) (k0_pay21 (k0_pay5 (F := Ideal) x0 x1 x2 x3 x4)) (k0_pay22 (k0_pay7 (F := Ideal) x0 x2 x4) (k0_pay8 (F := Ideal) x0 x1 x3)) (k0_pay23 IOTA1) (Scalar.ofBits (F := Ideal) .f32 0x00000000#32) (k0_pay24 (F := Ideal))
      = shapeCast S1x1x256 (divf (addf (addf (addf (addf (addf (addf (addf (addf (k0_pay9 (F := Ideal)) (blkAt x0 x1 x2 x3 x4 0 slices_S2048x1_o0_0_S256x1 slices_S2048x64_o0_0_S256x64)) (blkAt x0 x1 x2 x3 x4 256 slices_S2048x1_o256_0_S256x1 slices_S2048x64_o256_0_S256x64)) (blkAt x0 x1 x2 x3 x4 512 slices_S2048x1_o512_0_S256x1 slices_S2048x64_o512_0_S256x64)) (blkAt x0 x1 x2 x3 x4 768 slices_S2048x1_o768_0_S256x1 slices_S2048x64_o768_0_S256x64)) (blkAt x0 x1 x2 x3 x4 1024 slices_S2048x1_o1024_0_S256x1 slices_S2048x64_o1024_0_S256x64)) (blkAt x0 x1 x2 x3 x4 1280 slices_S2048x1_o1280_0_S256x1 slices_S2048x64_o1280_0_S256x64)) (blkAt x0 x1 x2 x3 x4 1536 slices_S2048x1_o1536_0_S256x1 slices_S2048x64_o1536_0_S256x64)) (blkAt x0 x1 x2 x3 x4 1792 slices_S2048x1_o1792_0_S256x1 slices_S2048x64_o1792_0_S256x64)) (broadcast S1x256 (Scalar.ofBits (F := Ideal) .f32 0x45000000#32))) shapeCasts_S1x256_S1x1x256 := by
  rw [pay12_eq, pay16_eq, pay20_eq, pay1_eq]

/-- Entry q of the body's result is the specification's. -/
theorem body_apply (q : Fin 256) :
    (k0_pay1 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay20 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay16 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay12 (k0_pay2 (F := Ideal) x0) (k0_pay5 (F := Ideal) x0 x1 x2 x3 x4) (k0_pay6 (F := Ideal) x0 x1 x2 x3 x4) (k0_pay7 (F := Ideal) x0 x2 x4) (k0_pay8 (F := Ideal) x0 x1 x3) IOTA1 (k0_pay9 (F := Ideal)) (k0_pay10 (F := Ideal) x0 x1 x2 x3 x4) (k0_pay11 (F := Ideal) x0 x1 x2 x3 x4) (iota .tc S256x2048 32 [0] iota_S256x2048_d0_w32) 0#32) (k0_pay13 (k0_pay5 (F := Ideal) x0 x1 x2 x3 x4)) (k0_pay14 (k0_pay7 (F := Ideal) x0 x2 x4) (k0_pay8 (F := Ideal) x0 x1 x3)) k0_pay15) (k0_pay17 (k0_pay5 (F := Ideal) x0 x1 x2 x3 x4)) (k0_pay18 (k0_pay7 (F := Ideal) x0 x2 x4) (k0_pay8 (F := Ideal) x0 x1 x3)) (k0_pay19 IOTA1) (Scalar.ofBits (F := Ideal) .f32 0x3F800000#32)) (k0_pay21 (k0_pay5 (F := Ideal) x0 x1 x2 x3 x4)) (k0_pay22 (k0_pay7 (F := Ideal) x0 x2 x4) (k0_pay8 (F := Ideal) x0 x1 x3)) (k0_pay23 IOTA1) (Scalar.ofBits (F := Ideal) .f32 0x00000000#32) (k0_pay24 (F := Ideal))) (ix3 0 0 q)
      = vfin (rowsOf x0) (wOf x1) (bOf x3) (wOf x2) (bOf x4) q := by
  rw [pay_chain]
  refine (shapeCast_ab_1ab_apply _ _ 0 0 q).trans ?_
  unfold vfin
  show Ideal.div ((addf (addf (addf (addf (addf (addf (addf (addf (k0_pay9 (F := Ideal)) (blkAt x0 x1 x2 x3 x4 0 slices_S2048x1_o0_0_S256x1 slices_S2048x64_o0_0_S256x64)) (blkAt x0 x1 x2 x3 x4 256 slices_S2048x1_o256_0_S256x1 slices_S2048x64_o256_0_S256x64)) (blkAt x0 x1 x2 x3 x4 512 slices_S2048x1_o512_0_S256x1 slices_S2048x64_o512_0_S256x64)) (blkAt x0 x1 x2 x3 x4 768 slices_S2048x1_o768_0_S256x1 slices_S2048x64_o768_0_S256x64)) (blkAt x0 x1 x2 x3 x4 1024 slices_S2048x1_o1024_0_S256x1 slices_S2048x64_o1024_0_S256x64)) (blkAt x0 x1 x2 x3 x4 1280 slices_S2048x1_o1280_0_S256x1 slices_S2048x64_o1280_0_S256x64)) (blkAt x0 x1 x2 x3 x4 1536 slices_S2048x1_o1536_0_S256x1 slices_S2048x64_o1536_0_S256x64)) (blkAt x0 x1 x2 x3 x4 1792 slices_S2048x1_o1792_0_S256x1 slices_S2048x64_o1792_0_S256x64)) (ix2 0 q)) (Ideal.ofBits .f32 0x45000000#32) = _
  refine congrArg (fun s => Ideal.div s (Ideal.ofBits .f32 0x45000000#32)) ?_
  simp only [addf_apply]
  rw [blkAt_apply x0 x1 x2 x3 x4 0 0 rfl,
    blkAt_apply x0 x1 x2 x3 x4 256 1 rfl,
    blkAt_apply x0 x1 x2 x3 x4 512 2 rfl,
    blkAt_apply x0 x1 x2 x3 x4 768 3 rfl,
    blkAt_apply x0 x1 x2 x3 x4 1024 4 rfl,
    blkAt_apply x0 x1 x2 x3 x4 1280 5 rfl,
    blkAt_apply x0 x1 x2 x3 x4 1536 6 rfl,
    blkAt_apply x0 x1 x2 x3 x4 1792 7 rfl]
  have h9 : k0_pay9 (F := Ideal) (ix2 0 q) = 0 := Ideal.ofBits_zero_f32
  rw [h9]
  exact fold_rows (fun n => ∑ m : Fin 2048, newW (Lf x0 x2 x4) (Rf x0 x1 x3) n m * rowsOf x0 m q)

end Cert.KernelIdeal.Body

end
-- ==== Proof.KerValue.lean ====
/-
  The kernel's result array after the run, as one function of the arrays the region finds.
  Grid point t works on batch entry t: its block of the first window is rows (t, *, *) of the feature array, the four
  other input windows are whole (the two transposed weight matrices and the two bias rows), and the point writes back
  block (t, 0, *) of the [32, 1, 256] result. So entry (b, 0, q) of the result is the specification's vfin of batch entry
  b's rows at q, and the 32 blocks cover the result.
-/
import proofs.«144438_j52733608460806_1_alg».proof.Proof.Gen.KernelIdeal.Frame
import proofs.«144438_j52733608460806_1_alg».proof.Proof.KerBody

set_option maxRecDepth 16384

noncomputable section

namespace Cert.KernelIdeal.KerValue

open Cert.KernelIdeal Cert.KernelIdeal.Gen Cert.KernelIdeal.Body Idealize.ShloMosaic Idealize.ShloMosaic.TcCoe
open Idealize.ShloMosaic.ValueIdx Idealize.SL.Sem Cert.UnCorr
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: point t reads batch entry t and writes result block t; the other windows stay
    at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point as a batch number. -/
def tb (t : Fin cfg0.N) : Fin 32 := ⟨t.val, Nat.lt_of_lt_of_eq t.isLt N_0⟩

/-- The batch number and the feature number of a result index. -/
def bIdx (i : S32x1x256.Idx) : Fin 32 := ⟨(i 0).val, (i 0).isLt⟩
def qIdx (i : S32x1x256.Idx) : Fin 256 := ⟨(i 2).val, (i 2).isLt⟩

/-- The result array as a function of the feature array, the transposed weights and the bias rows. -/
def G5 (a0 : S32x2048x256.Idx → EReal) (w1t w2t : S256x64.Idx → EReal) (b1r b2r : S1x64.Idx → EReal) :
    S32x1x256.Idx → EReal := fun i =>
  vfin (fun n k => a0 (ix3 (bIdx i) n k)) (fun l k => w1t (ix2 k l)) (fun l => b1r (ix2 0 l))
    (fun l k => w2t (ix2 k l)) (fun l => b2r (ix2 0 l)) (qIdx i)

/-- The first window's block at point t is batch entry t's rows. -/
theorem iblk0_apply (c : Dev nD) (t : Fin cfg0.N) (n : Fin 2048) (k : Fin 256) :
    (iblk m c 0 t : Vec Ideal S1x2048x256 .f32) (ix3 0 n k) = V m c main_arg0 (ix3 (tb t) n k) := by
  obtain ⟨e0, e1, e2, -⟩ := idx_facts t
  unfold iblk
  rw [View.read_apply]
  show V m c main_arg0 _ = V m c main_arg0 _
  refine congrArg (V m c main_arg0) ?_
  funext a
  apply Fin.ext
  match a with
  | ⟨0, _⟩ => show win0_0.index t 0 * 1 + 1 * 0 = t.val; rw [e0]; omega
  | ⟨1, _⟩ => show win0_0.index t 1 * 2048 + 1 * n.val = n.val; rw [e1]; omega
  | ⟨2, _⟩ => show win0_0.index t 2 * 256 + 1 * k.val = k.val; rw [e2]; omega

/-- The weight windows' blocks are the whole transposed weight matrices. -/
theorem iblk1_apply (c : Dev nD) (t : Fin cfg0.N) (k : Fin 256) (l : Fin 64) :
    (iblk m c 1 t : Vec Ideal S256x64 .f32) (ix2 k l) = V m c main_v10 (ix2 k l) := by
  obtain ⟨-, -, -, e0, e1, -⟩ := idx_facts t
  unfold iblk
  rw [View.read_apply]
  show V m c main_v10 _ = V m c main_v10 _
  refine congrArg (V m c main_v10) ?_
  funext a
  apply Fin.ext
  match a with
  | ⟨0, _⟩ => show win0_1.index t 0 * 256 + 1 * k.val = k.val; rw [e0]; omega
  | ⟨1, _⟩ => show win0_1.index t 1 * 64 + 1 * l.val = l.val; rw [e1]; omega

theorem iblk2_apply (c : Dev nD) (t : Fin cfg0.N) (k : Fin 256) (l : Fin 64) :
    (iblk m c 2 t : Vec Ideal S256x64 .f32) (ix2 k l) = V m c main_v11 (ix2 k l) := by
  obtain ⟨-, -, -, -, -, e0, e1, -⟩ := idx_facts t
  unfold iblk
  rw [View.read_apply]
  show V m c main_v11 _ = V m c main_v11 _
  refine congrArg (V m c main_v11) ?_
  funext a
  apply Fin.ext
  match a with
  | ⟨0, _⟩ => show win0_2.index t 0 * 256 + 1 * k.val = k.val; rw [e0]; omega
  | ⟨1, _⟩ => show win0_2.index t 1 * 64 + 1 * l.val = l.val; rw [e1]; omega

/-- The bias windows' blocks are the whole bias rows. -/
theorem iblk3_apply (c : Dev nD) (t : Fin cfg0.N) (l : Fin 64) :
    (iblk m c 3 t : Vec Ideal S1x64 .f32) (ix2 0 l) = V m c main_v12 (ix2 0 l) := by
  obtain ⟨-, -, -, -, -, -, -, e0, e1, -⟩ := idx_facts t
  unfold iblk
  rw [View.read_apply]
  show V m c main_v12 _ = V m c main_v12 _
  refine congrArg (V m c main_v12) ?_
  funext a
  apply Fin.ext
  match a with
  | ⟨0, _⟩ => show win0_3.index t 0 * 1 + 1 * 0 = 0; rw [e0]
  | ⟨1, _⟩ => show win0_3.index t 1 * 64 + 1 * l.val = l.val; rw [e1]; omega

theorem iblk4_apply (c : Dev nD) (t : Fin cfg0.N) (l : Fin 64) :
    (iblk m c 4 t : Vec Ideal S1x64 .f32) (ix2 0 l) = V m c main_v13 (ix2 0 l) := by
  obtain ⟨-, -, -, -, -, -, -, -, -, e0, e1, -⟩ := idx_facts t
  unfold iblk
  rw [View.read_apply]
  show V m c main_v13 _ = V m c main_v13 _
  refine congrArg (V m c main_v13) ?_
  funext a
  apply Fin.ext
  match a with
  | ⟨0, _⟩ => show win0_4.index t 0 * 1 + 1 * 0 = 0; rw [e0]
  | ⟨1, _⟩ => show win0_4.index t 1 * 64 + 1 * l.val = l.val; rw [e1]; omega

/-- What point t writes back is block t of the result function of the arrays as the region finds them. -/
theorem flushed_eq (c : Dev nD) (t : Fin cfg0.N) :
    (dats m 0 c).flushed 5 t = ((cfg0.win 5).blk t).view.read (Elt Ideal)
      (G5 (V m c main_arg0) (V m c main_v10) (V m c main_v11) (V m c main_v12) (V m c main_v13)) := by
  show (cfg0.win 5).cut (grid0.coords t) ((dats m 0 c).after 5 t) = _
  rw [after0_5]
  unfold out0_5
  rw [View.canon_unit_zero hz3]
  simp only [View.ld_unit_zero (S := S1x2048x256) hz3, View.ld_unit_zero (S := S256x64) hz2, View.ld_unit_zero (S := S1x64) hz2]
  obtain ⟨-, -, -, -, -, -, -, -, -, -, -, e0, e1, e2⟩ := idx_facts t
  funext j
  obtain ⟨u, u', q, rfl⟩ : ∃ (u : Fin 1) (u' : Fin 1) (q : Fin 256), j = ix3 u u' q := ⟨j 0, j 1, j 2, eq_ix3 j⟩
  obtain rfl : u = 0 := Subsingleton.elim _ _
  obtain rfl : u' = 0 := Subsingleton.elim _ _
  refine (body_apply (iblk m c 0 t) (iblk m c 1 t) (iblk m c 2 t) (iblk m c 3 t) (iblk m c 4 t) q).trans ?_
  rw [View.read_apply]
  unfold G5
  have hb : bIdx (((cfg0.win 5).blk t).view.emb (ix3 0 0 q)) = tb t :=
    Fin.ext (show win0_5.index t 0 * 1 + 1 * 0 = t.val by rw [e0]; omega)
  have hq : qIdx (((cfg0.win 5).blk t).view.emb (ix3 0 0 q)) = q :=
    Fin.ext (show win0_5.index t 2 * 256 + 1 * q.val = q.val by rw [e2]; omega)
  have h0 : rowsOf (iblk m c 0 t) = fun n k => V m c main_arg0 (ix3 (tb t) n k) :=
    funext fun n => funext fun k => iblk0_apply m c t n k
  have h1 : wOf (iblk m c 1 t) = fun l k => V m c main_v10 (ix2 k l) :=
    funext fun l => funext fun k => iblk1_apply m c t k l
  have h2 : wOf (iblk m c 2 t) = fun l k => V m c main_v11 (ix2 k l) :=
    funext fun l => funext fun k => iblk2_apply m c t k l
  have h3 : bOf (iblk m c 3 t) = fun l => V m c main_v12 (ix2 0 l) := funext fun l => iblk3_apply m c t l
  have h4 : bOf (iblk m c 4 t) = fun l => V m c main_v13 (ix2 0 l) := funext fun l => iblk4_apply m c t l
  rw [h0, h1, h2, h3, h4, hb, hq]
  rfl

/-- An index of the result is in point t's block iff each coordinate is in the block's range on its axis. -/
theorem mem_blk (t : Fin cfg0.N) (i : S32x1x256.Idx) :
    i ∈ ((cfg0.win 5).blk t).view.set ↔ ∀ a : Fin 3, win0_5.index t a * S1x1x256.size a ≤ (i a).val ∧ (i a).val < win0_5.index t a * S1x1x256.size a + S1x1x256.size a := by
  show i ∈ ((View.whole main_v14).slice (win0_5.rect t)).set ↔ _
  rw [View.set_slice_whole, Rect.mem_set_unit]
  exact Iff.rfl

/-- Every index of the result is in some point's block: the point of its batch number. -/
theorem cover (i : S32x1x256.Idx) :
    ∃ t : Fin cfg0.N, (cfg0.win 5).flush t = true ∧ i ∈ ((cfg0.win 5).blk t).view.set := by
  have hi0 : (i 0).val < 32 := (i 0).isLt
  have hi1 : (i 1).val < 1 := (i 1).isLt
  have hi2 : (i 2).val < 256 := (i 2).isLt
  have hN : cfg0.N = 32 := N_0
  obtain ⟨t, ht⟩ : ∃ t : Fin cfg0.N, t.val = (i 0).val := ⟨⟨(i 0).val, by rw [hN]; exact hi0⟩, rfl⟩
  obtain ⟨-, -, -, -, -, -, -, -, -, -, -, e0, e1, e2⟩ := idx_facts t
  refine ⟨t, flush0_5 t, ?_⟩
  rw [mem_blk]
  intro a
  match a with
  | ⟨0, _⟩ => show win0_5.index t 0 * 1 ≤ (i 0).val ∧ (i 0).val < win0_5.index t 0 * 1 + 1; rw [e0]; omega
  | ⟨1, _⟩ => show win0_5.index t 1 * 1 ≤ (i 1).val ∧ (i 1).val < win0_5.index t 1 * 1 + 1; rw [e1]; omega
  | ⟨2, _⟩ => show win0_5.index t 2 * 256 ≤ (i 2).val ∧ (i 2).val < win0_5.index t 2 * 256 + 256; rw [e2]; omega

/-- The result array after the run. -/
theorem final (c : Dev nD) :
    (dats m 0 c).arrAt 5 cfg0.N = G5 (V m c main_arg0) (V m c main_v10) (V m c main_v11) (V m c main_v12) (V m c main_v13) :=
  (dats m 0 c).arrAt_eq_of_cover 5 _ (fun t _ => flushed_eq m c t) (cover)

end Cert.KernelIdeal.KerValue

end
-- ==== Proof.RefRun.lean ====
/-
  The reference program's @main as the LIST of its 118 host operations, in order, with the bodies of the
  functions it calls (@norm twice, @relu twice, @_var and, inside it, @_where) written out at their call
  sites over each call's own record of buffers: a call means its callee's body on the operands. @main is
  the sequence of that list (the definitions unfolded and the sequencing re-associated), so its run is the
  library's run of a sequence of host operations: every weakly fair execution terminates with each buffer
  at the fold of the operations over the launch contents.
-/
import proofs.«144438_j52733608460806_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 118 operations, in order, the calls unfolded. -/
abbrev ops : List (HloOp τ sig (Elt F)) :=
  [
    StableHlo.TRef.binary (.of main_arg1) (.of main_arg1) main_call0.v0 mulf,
    StableHlo.TRef.nullary main_call0.cst (constant S_ .f32 0x00000000#32),
    StableHlo.TRef.binary main_call0.v0 main_call0.cst main_call0.v1 (fun x v => Host.reduceAdd x v reducesTo_S64x256_S64_d1 h_S_),
    StableHlo.TRef.unary main_call0.v1 main_call0.v2 Host.sqrt,
    StableHlo.binary main_arg2 main_v0 main_v1 (Host.divf : (⟨S64, .f32⟩ : BufTy).Contents (Elt F) → (⟨S64, .f32⟩ : BufTy).Contents (Elt F) → (⟨S64, .f32⟩ : BufTy).Contents (Elt F)),
    StableHlo.unary main_v1 main_v2 (broadcastInDim S64x1 ![0] bcast_S64_S64x1_0 : (⟨S64, .f32⟩ : BufTy).Contents (Elt F) → (⟨S64x1, .f32⟩ : BufTy).Contents (Elt F)),
    StableHlo.unary main_v2 main_v3 (broadcastInDim S64x256 ![0, 1] bcast_S64x1_S64x256_0_1 : (⟨S64x1, .f32⟩ : BufTy).Contents (Elt F) → (⟨S64x256, .f32⟩ : BufTy).Contents (Elt F)),
    StableHlo.binary main_arg1 main_v3 main_v4 (mulf : (⟨S64x256, .f32⟩ : BufTy).Contents (Elt F) → (⟨S64x256, .f32⟩ : BufTy).Contents (Elt F) → (⟨S64x256, .f32⟩ : BufTy).Contents (Elt F)),
    StableHlo.TRef.binary (.of main_arg4) (.of main_arg4) main_call1.v0 mulf,
    StableHlo.TRef.nullary main_call1.cst (constant S_ .f32 0x00000000#32),
    StableHlo.TRef.binary main_call1.v0 main_call1.cst main_call1.v1 (fun x v => Host.reduceAdd x v reducesTo_S64x256_S64_d1 h_S_),
    StableHlo.TRef.unary main_call1.v1 main_call1.v2 Host.sqrt,
    StableHlo.binary main_arg5 main_v5 main_v6 (Host.divf : (⟨S64, .f32⟩ : BufTy).Contents (Elt F) → (⟨S64, .f32⟩ : BufTy).Contents (Elt F) → (⟨S64, .f32⟩ : BufTy).Contents (Elt F)),
    StableHlo.unary main_v6 main_v7 (broadcastInDim S64x1 ![0] bcast_S64_S64x1_0 : (⟨S64, .f32⟩ : BufTy).Contents (Elt F) → (⟨S64x1, .f32⟩ : BufTy).Contents (Elt F)),
    StableHlo.unary main_v7 main_v8 (broadcastInDim S64x256 ![0, 1] bcast_S64x1_S64x256_0_1 : (⟨S64x1, .f32⟩ : BufTy).Contents (Elt F) → (⟨S64x256, .f32⟩ : BufTy).Contents (Elt F)),
    StableHlo.binary main_arg4 main_v8 main_v9 (mulf : (⟨S64x256, .f32⟩ : BufTy).Contents (Elt F) → (⟨S64x256, .f32⟩ : BufTy).Contents (Elt F) → (⟨S64x256, .f32⟩ : BufTy).Contents (Elt F)),
    StableHlo.binary main_arg0 main_v4 main_v10 ((fun l r => Host.dotGeneral dot_S32x2048x256_S64x256_S32x2048x64_2_1_01_0_n_n none l r) : (⟨S32x2048x256, .f32⟩ : BufTy).Contents (Elt F) → (⟨S64x256, .f32⟩ : BufTy).Contents (Elt F) → (⟨S32x2048x64, .f32⟩ : BufTy).Contents (Elt F)),
    StableHlo.unary main_arg3 main_v11 (broadcastInDim S1x1x64 ![2] bcast_S64_S1x1x64_2 : (⟨S64, .f32⟩ : BufTy).Contents (Elt F) → (⟨S1x1x64, .f32⟩ : BufTy).Contents (Elt F)),
    StableHlo.unary main_v11 main_v12 (broadcastInDim S32x2048x64 ![0, 1, 2] bcast_S1x1x64_S32x2048x64_0_1_2 : (⟨S1x1x64, .f32⟩ : BufTy).Contents (Elt F) → (⟨S32x2048x64, .f32⟩ : BufTy).Contents (Elt F)),
    StableHlo.binary main_v10 main_v12 main_v13 (addf : (⟨S32x2048x64, .f32⟩ : BufTy).Contents (Elt F) → (⟨S32x2048x64, .f32⟩ : BufTy).Contents (Elt F) → (⟨S32x2048x64, .f32⟩ : BufTy).Contents (Elt F)),
    StableHlo.TRef.nullary main_call2.cst (constant S_ .f32 0x00000000#32),
    StableHlo.TRef.unary main_call2.cst main_call2.v0 (broadcastInDim S32x2048x64 ![] bcast_S_S32x2048x64),
    StableHlo.TRef.binary (.of main_v13) main_call2.v0 main_call2.v1 maximumf,
    StableHlo.binary main_arg0 main_v9 main_v15 ((fun l r => Host.dotGeneral dot_S32x2048x256_S64x256_S32x2048x64_2_1_01_0_n_n none l r) : (⟨S32x2048x256, .f32⟩ : BufTy).Contents (Elt F) → (⟨S64x256, .f32⟩ : BufTy).Contents (Elt F) → (⟨S32x2048x64, .f32⟩ : BufTy).Contents (Elt F)),
    StableHlo.unary main_arg6 main_v16 (broadcastInDim S1x1x64 ![2] bcast_S64_S1x1x64_2 : (⟨S64, .f32⟩ : BufTy).Contents (Elt F) → (⟨S1x1x64, .f32⟩ : BufTy).Contents (Elt F)),
    StableHlo.unary main_v16 main_v17 (broadcastInDim S32x2048x64 ![0, 1, 2] bcast_S1x1x64_S32x2048x64_0_1_2 : (⟨S1x1x64, .f32⟩ : BufTy).Contents (Elt F) → (⟨S32x2048x64, .f32⟩ : BufTy).Contents (Elt F)),
    StableHlo.binary main_v15 main_v17 main_v18 (addf : (⟨S32x2048x64, .f32⟩ : BufTy).Contents (Elt F) → (⟨S32x2048x64, .f32⟩ : BufTy).Contents (Elt F) → (⟨S32x2048x64, .f32⟩ : BufTy).Contents (Elt F)),
    StableHlo.TRef.nullary main_call3.cst (constant S_ .f32 0x00000000#32),
    StableHlo.TRef.unary main_call3.cst main_call3.v0 (broadcastInDim S32x2048x64 ![] bcast_S_S32x2048x64),
    StableHlo.TRef.binary (.of main_v18) main_call3.v0 main_call3.v1 maximumf,
    StableHlo.binary main_v19 main_v14 main_v20 ((fun l r => Host.dotGeneral dot_S32x2048x64_S32x2048x64_S32x2048x2048_2_2_1_1_0_0 none l r) : (⟨S32x2048x64, .f32⟩ : BufTy).Contents (Elt F) → (⟨S32x2048x64, .f32⟩ : BufTy).Contents (Elt F) → (⟨S32x2048x2048, .f32⟩ : BufTy).Contents (Elt F)),
    StableHlo.nullary main_v21 (iotaInDim S2048x2048 32 0),
    StableHlo.nullary main_v22 (iotaInDim S2048x2048 32 1),
    StableHlo.binary main_v21 main_v22 main_v23 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v23 main_v24 (broadcastInDim S32x2048x2048 ![1, 2] bcast_S2048x2048_S32x2048x2048_1_2 : (⟨S2048x2048, .i1⟩ : BufTy).Contents (Elt F) → (⟨S32x2048x2048, .i1⟩ : BufTy).Contents (Elt F)),
    StableHlo.nullary main_cst (constant S_ .f32 0x00000000#32),
    StableHlo.unary main_cst main_v25 (broadcastInDim S32x2048x2048 ![] bcast_S_S32x2048x2048 : (⟨S_, .f32⟩ : BufTy).Contents (Elt F) → (⟨S32x2048x2048, .f32⟩ : BufTy).Contents (Elt F)),
    StableHlo.ternary main_v24 main_v20 main_v25 main_v26 (select : (⟨S32x2048x2048, .i1⟩ : BufTy).Contents (Elt F) → (⟨S32x2048x2048, .f32⟩ : BufTy).Contents (Elt F) → (⟨S32x2048x2048, .f32⟩ : BufTy).Contents (Elt F) → (⟨S32x2048x2048, .f32⟩ : BufTy).Contents (Elt F)),
    StableHlo.nullary main_cst_0 (constant S_ .f32 0x00000000#32),
    StableHlo.binary main_v26 main_cst_0 main_v27 ((fun x v => Host.reduceAdd x v reducesTo_S32x2048x2048_S32x2048_d1 h_S_) : (⟨S32x2048x2048, .f32⟩ : BufTy).Contents (Elt F) → (⟨S_, .f32⟩ : BufTy).Contents (Elt F) → (⟨S32x2048, .f32⟩ : BufTy).Contents (Elt F)),
    StableHlo.nullary main_cst_1 (constant S_ .f32 0x358637BD#32),
    StableHlo.unary main_cst_1 main_v28 (broadcastInDim S32x2048 ![] bcast_S_S32x2048 : (⟨S_, .f32⟩ : BufTy).Contents (Elt F) → (⟨S32x2048, .f32⟩ : BufTy).Contents (Elt F)),
    StableHlo.binary main_v27 main_v28 main_v29 (addf : (⟨S32x2048, .f32⟩ : BufTy).Contents (Elt F) → (⟨S32x2048, .f32⟩ : BufTy).Contents (Elt F) → (⟨S32x2048, .f32⟩ : BufTy).Contents (Elt F)),
    StableHlo.unary main_v29 main_v30 (Host.rsqrt : (⟨S32x2048, .f32⟩ : BufTy).Contents (Elt F) → (⟨S32x2048, .f32⟩ : BufTy).Contents (Elt F)),
    StableHlo.unary main_v30 main_v31 (broadcastInDim S32x1x2048 ![0, 2] bcast_S32x2048_S32x1x2048_0_2 : (⟨S32x2048, .f32⟩ : BufTy).Contents (Elt F) → (⟨S32x1x2048, .f32⟩ : BufTy).Contents (Elt F)),
    StableHlo.unary main_v31 main_v32 (broadcastInDim S32x2048x2048 ![0, 1, 2] bcast_S32x1x2048_S32x2048x2048_0_1_2 : (⟨S32x1x2048, .f32⟩ : BufTy).Contents (Elt F) → (⟨S32x2048x2048, .f32⟩ : BufTy).Contents (Elt F)),
    StableHlo.binary main_v32 main_v20 main_v33 (mulf : (⟨S32x2048x2048, .f32⟩ : BufTy).Contents (Elt F) → (⟨S32x2048x2048, .f32⟩ : BufTy).Contents (Elt F) → (⟨S32x2048x2048, .f32⟩ : BufTy).Contents (Elt F)),
    StableHlo.unary main_v30 main_v34 (broadcastInDim S32x2048x1 ![0, 1] bcast_S32x2048_S32x2048x1_0_1 : (⟨S32x2048, .f32⟩ : BufTy).Contents (Elt F) → (⟨S32x2048x1, .f32⟩ : BufTy).Contents (Elt F)),
    StableHlo.unary main_v34 main_v35 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    StableHlo.binary main_v33 main_v35 main_v36 (mulf : (⟨S32x2048x2048, .f32⟩ : BufTy).Contents (Elt F) → (⟨S32x2048x2048, .f32⟩ : BufTy).Contents (Elt F) → (⟨S32x2048x2048, .f32⟩ : BufTy).Contents (Elt F)),
    StableHlo.nullary main_v37 (iotaInDim S2048x2048 32 0),
    StableHlo.nullary main_v38 (iotaInDim S2048x2048 32 1),
    StableHlo.nullary main_c (constantI S_ 32 0#32),
    StableHlo.unary main_c main_v39 (broadcastInDim S2048x2048 ![] bcast_S_S2048x2048 : (⟨S_, .i32⟩ : BufTy).Contents (Elt F) → (⟨S2048x2048, .i32⟩ : BufTy).Contents (Elt F)),
    StableHlo.binary main_v37 main_v39 main_v40 (addi : (⟨S2048x2048, .i32⟩ : BufTy).Contents (Elt F) → (⟨S2048x2048, .i32⟩ : BufTy).Contents (Elt F) → (⟨S2048x2048, .i32⟩ : BufTy).Contents (Elt F)),
    StableHlo.binary main_v40 main_v38 main_v41 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v41 main_v42 (uitofp .f32 : (⟨S2048x2048, .i1⟩ : BufTy).Contents (Elt F) → (⟨S2048x2048, .f32⟩ : BufTy).Contents (Elt F)),
    StableHlo.nullary main_cst_2 (constant S_ .f32 0x3F800000#32),
    StableHlo.unary main_cst_2 main_v43 (broadcastInDim S2048x2048 ![] bcast_S_S2048x2048 : (⟨S_, .f32⟩ : BufTy).Contents (Elt F) → (⟨S2048x2048, .f32⟩ : BufTy).Contents (Elt F)),
    StableHlo.binary main_v43 main_v42 main_v44 (addf : (⟨S2048x2048, .f32⟩ : BufTy).Contents (Elt F) → (⟨S2048x2048, .f32⟩ : BufTy).Contents (Elt F) → (⟨S2048x2048, .f32⟩ : BufTy).Contents (Elt F)),
    StableHlo.unary main_v44 main_v45 (broadcastInDim S1x2048x2048 ![1, 2] bcast_S2048x2048_S1x2048x2048_1_2 : (⟨S2048x2048, .f32⟩ : BufTy).Contents (Elt F) → (⟨S1x2048x2048, .f32⟩ : BufTy).Contents (Elt F)),
    StableHlo.unary main_v45 main_v46 (broadcastInDim S32x2048x2048 ![0, 1, 2] bcast_S1x2048x2048_S32x2048x2048_0_1_2 : (⟨S1x2048x2048, .f32⟩ : BufTy).Contents (Elt F) → (⟨S32x2048x2048, .f32⟩ : BufTy).Contents (Elt F)),
    StableHlo.binary main_v46 main_v36 main_v47 (subf : (⟨S32x2048x2048, .f32⟩ : BufTy).Contents (Elt F) → (⟨S32x2048x2048, .f32⟩ : BufTy).Contents (Elt F) → (⟨S32x2048x2048, .f32⟩ : BufTy).Contents (Elt F)),
    StableHlo.binary main_v47 main_arg0 main_v48 ((fun l r => Host.dotGeneral dot_S32x2048x2048_S32x2048x256_S32x2048x256_2_1_1_2_0_0 none l r) : (⟨S32x2048x2048, .f32⟩ : BufTy).Contents (Elt F) → (⟨S32x2048x256, .f32⟩ : BufTy).Contents (Elt F) → (⟨S32x2048x256, .f32⟩ : BufTy).Contents (Elt F)),
    StableHlo.nullary main_cst_3 (constant S_ .f32 0x00000000#32),
    StableHlo.binary main_v48 main_cst_3 main_v49 ((fun x v => Host.reduceAdd x v reducesTo_S32x2048x256_S32x256_d1 h_S_) : (⟨S32x2048x256, .f32⟩ : BufTy).Contents (Elt F) → (⟨S_, .f32⟩ : BufTy).Contents (Elt F) → (⟨S32x256, .f32⟩ : BufTy).Contents (Elt F)),
    StableHlo.nullary main_cst_4 (constant S_ .f32 0x45000000#32),
    StableHlo.unary main_cst_4 main_v50 (broadcastInDim S32x256 ![] bcast_S_S32x256 : (⟨S_, .f32⟩ : BufTy).Contents (Elt F) → (⟨S32x256, .f32⟩ : BufTy).Contents (Elt F)),
    StableHlo.binary main_v49 main_v50 main_v51 (Host.divf : (⟨S32x256, .f32⟩ : BufTy).Contents (Elt F) → (⟨S32x256, .f32⟩ : BufTy).Contents (Elt F) → (⟨S32x256, .f32⟩ : BufTy).Contents (Elt F)),
    StableHlo.unary main_arg7 main_v52 ((transpose S256x256 [1, 0] · transposes_S256x256_S256x256_1_0) : (⟨S256x256, .f32⟩ : BufTy).Contents (Elt F) → (⟨S256x256, .f32⟩ : BufTy).Contents (Elt F)),
    StableHlo.binary main_v51 main_v52 main_v53 ((fun l r => Host.dotGeneral dot_S32x256_S256x256_S32x256_1_0_0_1_n_n none l r) : (⟨S32x256, .f32⟩ : BufTy).Contents (Elt F) → (⟨S256x256, .f32⟩ : BufTy).Contents (Elt F) → (⟨S32x256, .f32⟩ : BufTy).Contents (Elt F)),
    StableHlo.unary main_arg8 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S32x256 ![0, 1] bcast_S1x256_S32x256_0_1 : (⟨S1x256, .f32⟩ : BufTy).Contents (Elt F) → (⟨S32x256, .f32⟩ : BufTy).Contents (Elt F)),
    StableHlo.binary main_v53 main_v55 main_v56 (addf : (⟨S32x256, .f32⟩ : BufTy).Contents (Elt F) → (⟨S32x256, .f32⟩ : BufTy).Contents (Elt F) → (⟨S32x256, .f32⟩ : BufTy).Contents (Elt F)),
    StableHlo.nullary main_cst_5 (constant S_ .f32 0x00000000#32),
    StableHlo.binary main_v56 main_cst_5 main_v57 ((fun x v => Host.reduceAdd x v reducesTo_S32x256_S256_d0 h_S_) : (⟨S32x256, .f32⟩ : BufTy).Contents (Elt F) → (⟨S_, .f32⟩ : BufTy).Contents (Elt F) → (⟨S256, .f32⟩ : BufTy).Contents (Elt F)),
    StableHlo.nullary main_cst_6 (constant S_ .f32 0x42000000#32),
    StableHlo.unary main_cst_6 main_v58 (broadcastInDim S256 ![] bcast_S_S256 : (⟨S_, .f32⟩ : BufTy).Contents (Elt F) → (⟨S256, .f32⟩ : BufTy).Contents (Elt F)),
    StableHlo.binary main_v57 main_v58 main_v59 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call4.cst (constant S_ .f32 0x00000000#32),
    StableHlo.TRef.binary (.of main_v56) main_call4.cst main_call4.v0 (fun x v => Host.reduceAdd x v reducesTo_S32x256_S256_d0 h_S_),
    StableHlo.TRef.unary main_call4.v0 main_call4.v1 (broadcastInDim S1x256 ![1] bcast_S256_S1x256_1),
    StableHlo.TRef.nullary main_call4.cst_0 (constant S_ .f32 0x42000000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S32x256 ![0, 1] bcast_S1x256_S32x256_0_1),
    StableHlo.TRef.binary (.of main_v56) main_call4.v4 main_call4.v5 subf,
    StableHlo.TRef.binary main_call4.v5 main_call4.v5 main_call4.v6 mulf,
    StableHlo.TRef.unary (.of main_c_7) main_call4.v7 (sitofp .f32),
    StableHlo.TRef.nullary main_call4.cst_1 (constant S_ .f32 0x42000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S32x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v59 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S32x256 ![0, 1] bcast_S1x256_S32x256_0_1 : (⟨S1x256, .f32⟩ : BufTy).Contents (Elt F) → (⟨S32x256, .f32⟩ : BufTy).Contents (Elt F)),
    StableHlo.binary main_v56 main_v62 main_v63 (subf : (⟨S32x256, .f32⟩ : BufTy).Contents (Elt F) → (⟨S32x256, .f32⟩ : BufTy).Contents (Elt F) → (⟨S32x256, .f32⟩ : BufTy).Contents (Elt F)),
    StableHlo.nullary main_cst_8 (constant S_ .f32 0x3727C5AC#32),
    StableHlo.unary main_cst_8 main_v64 (broadcastInDim S256 ![] bcast_S_S256 : (⟨S_, .f32⟩ : BufTy).Contents (Elt F) → (⟨S256, .f32⟩ : BufTy).Contents (Elt F)),
    StableHlo.binary main_v60 main_v64 main_v65 (addf : (⟨S256, .f32⟩ : BufTy).Contents (Elt F) → (⟨S256, .f32⟩ : BufTy).Contents (Elt F) → (⟨S256, .f32⟩ : BufTy).Contents (Elt F)),
    StableHlo.unary main_v65 main_v66 (Host.rsqrt : (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S32x256 ![0, 1] bcast_S1x256_S32x256_0_1 : (⟨S1x256, .f32⟩ : BufTy).Contents (Elt F) → (⟨S32x256, .f32⟩ : BufTy).Contents (Elt F)),
    StableHlo.binary main_v63 main_v68 main_v69 (mulf : (⟨S32x256, .f32⟩ : BufTy).Contents (Elt F) → (⟨S32x256, .f32⟩ : BufTy).Contents (Elt F) → (⟨S32x256, .f32⟩ : BufTy).Contents (Elt F)),
    StableHlo.unary main_arg9 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S32x256 ![0, 1] bcast_S1x256_S32x256_0_1 : (⟨S1x256, .f32⟩ : BufTy).Contents (Elt F) → (⟨S32x256, .f32⟩ : BufTy).Contents (Elt F)),
    StableHlo.binary main_v69 main_v71 main_v72 (mulf : (⟨S32x256, .f32⟩ : BufTy).Contents (Elt F) → (⟨S32x256, .f32⟩ : BufTy).Contents (Elt F) → (⟨S32x256, .f32⟩ : BufTy).Contents (Elt F)),
    StableHlo.unary main_arg10 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S32x256 ![0, 1] bcast_S1x256_S32x256_0_1 : (⟨S1x256, .f32⟩ : BufTy).Contents (Elt F) → (⟨S32x256, .f32⟩ : BufTy).Contents (Elt F)),
    StableHlo.binary main_v72 main_v74 main_v75 (addf : (⟨S32x256, .f32⟩ : BufTy).Contents (Elt F) → (⟨S32x256, .f32⟩ : BufTy).Contents (Elt F) → (⟨S32x256, .f32⟩ : BufTy).Contents (Elt F)) ]

-- 118 binds re-associated: the rewrite under the chain recurses once per statement
set_option maxRecDepth 4096 in
set_option maxHeartbeats 4000000 in
/-- @main is that straight line: the two windows and the functions' definitions unfolded at their calls,
    both sides are one chain of host steps once sequencing is re-associated. -/
theorem main_eq (c : Dev nD) : main (F := F) c = seq ops := by
  simp only [main, main_part0, main_part1, fn_norm.body, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., binary_bufs_sub .., unary_bufs_sub .., binary_bufs_sub .., unary_bufs_sub ..,
    unary_bufs_sub .., binary_bufs_sub .., binary_bufs_sub .., nullary_bufs_sub .., binary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., nullary_bufs_sub .., nullary_bufs_sub .., binary_bufs_sub .., unary_bufs_sub .., nullary_bufs_sub ..,
    unary_bufs_sub .., ternary_bufs_sub .., nullary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

/-- On every device, for any float values, from any memory with zero counters: every weakly fair execution
    of @main terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The value the reference program computes, as one term of its eleven arguments.

  Reading the program's list of host operations at its result gives a composed term of host operations over the
  arguments' contents. It is stated here in three pieces, each in the program's own spelling:
    wn v g      a weight matrix v (64 x 256) with each row scaled by g / (the row's Euclidean norm);
    vfinR       from the batch of rows a0 (32 x 2048 x 256), two normalised weight matrices and two bias vectors: the two
                rectified projections L, R (2048 x 64 each per batch entry), their product U = L R^T (2048 x 2048), the
                normaliser d = rsqrt (diag U + eps), the matrix New = (1 + I) - (d_m U_nm) d_n, and the mean over n of
                New a0;
    tailR       a linear layer (256 x 256) on that mean, then a normalisation over the batch with scale and shift.
  The program's result is tailR (vfinR ...) and every argument is left as it was.
-/
import proofs.«144438_j52733608460806_1_alg».proof.Proof.RefRun
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo
open scoped BigOperators

/-! ## The composed term -/

/-- A weight matrix with each row l scaled by g l over the square root of the row's sum of squares. -/
def wn (v : FVec Ideal S64x256 .f32) (g : FVec Ideal S64 .f32) : FVec Ideal S64x256 .f32 :=
  mulf v (broadcastInDim S64x256 ![0, 1] bcast_S64x1_S64x256_0_1 (broadcastInDim S64x1 ![0] bcast_S64_S64x1_0
    (Host.divf g (Host.sqrt (Host.reduceAdd (mulf v v) (constant (F := Ideal) S_ .f32 0x00000000#32) reducesTo_S64x256_S64_d1 h_S_)))))

/-- A rectified projection: max (a0 w^T + b, 0), per batch entry and row. -/
def featR (a0 : FVec Ideal S32x2048x256 .f32) (w : FVec Ideal S64x256 .f32) (b : FVec Ideal S64 .f32) : FVec Ideal S32x2048x64 .f32 :=
  maximumf (addf (Host.dotGeneral dot_S32x2048x256_S64x256_S32x2048x64_2_1_01_0_n_n none a0 w)
      (broadcastInDim S32x2048x64 ![0, 1, 2] bcast_S1x1x64_S32x2048x64_0_1_2 (broadcastInDim S1x1x64 ![2] bcast_S64_S1x1x64_2 b)))
    (broadcastInDim S32x2048x64 ![] bcast_S_S32x2048x64 (constant (F := Ideal) S_ .f32 0x00000000#32))

/-- The product of two projections over their 64 features, per batch entry: U n m = sum_l L n l * R m l. -/
def uncR (L R : FVec Ideal S32x2048x64 .f32) : FVec Ideal S32x2048x2048 .f32 :=
  Host.dotGeneral dot_S32x2048x64_S32x2048x64_S32x2048x2048_2_2_1_1_0_0 none L R

/-- The diagonal of U, picked out of each column by a sum of selections on (row = column). -/
def diagR (U : FVec Ideal S32x2048x2048 .f32) : FVec Ideal S32x2048 .f32 :=
  Host.reduceAdd
    (select (broadcastInDim S32x2048x2048 ![1, 2] bcast_S2048x2048_S32x2048x2048_1_2 (cmpi .eq (iotaInDim S2048x2048 32 0) (iotaInDim S2048x2048 32 1)))
      U (broadcastInDim S32x2048x2048 ![] bcast_S_S32x2048x2048 (constant (F := Ideal) S_ .f32 0x00000000#32)))
    (constant (F := Ideal) S_ .f32 0x00000000#32) reducesTo_S32x2048x2048_S32x2048_d1 h_S_

/-- The normaliser: the inverse square root of the diagonal plus a constant. -/
def drR (U : FVec Ideal S32x2048x2048 .f32) : FVec Ideal S32x2048 .f32 :=
  Host.rsqrt (addf (diagR U) (broadcastInDim S32x2048 ![] bcast_S_S32x2048 (constant (F := Ideal) S_ .f32 0x358637BD#32)))

/-- U normalised on both sides: (d m * U n m) * d n. -/
def corrR (U : FVec Ideal S32x2048x2048 .f32) (d : FVec Ideal S32x2048 .f32) : FVec Ideal S32x2048x2048 .f32 :=
  mulf (mulf (broadcastInDim S32x2048x2048 ![0, 1, 2] bcast_S32x1x2048_S32x2048x2048_0_1_2 (broadcastInDim S32x1x2048 ![0, 2] bcast_S32x2048_S32x1x2048_0_2 d)) U)
    (broadcastInDim S32x2048x2048 ![0, 1, 2] bcast_S32x2048x1_S32x2048x2048_0_1_2 (broadcastInDim S32x2048x1 ![0, 1] bcast_S32x2048_S32x2048x1_0_1 d))

/-- One plus the identity matrix, the identity as the bit (row = column) read as a number. -/
def eyeR : FVec Ideal S2048x2048 .f32 :=
  addf (broadcastInDim S2048x2048 ![] bcast_S_S2048x2048 (constant (F := Ideal) S_ .f32 0x3F800000#32))
    (uitofp .f32 (cmpi .eq (addi (iotaInDim S2048x2048 32 0) (broadcastInDim S2048x2048 ![] bcast_S_S2048x2048 (constantI S_ 32 0#32))) (iotaInDim S2048x2048 32 1)))

/-- (1 + I) less the normalised product. -/
def newR (U : FVec Ideal S32x2048x2048 .f32) (d : FVec Ideal S32x2048 .f32) : FVec Ideal S32x2048x2048 .f32 :=
  subf (broadcastInDim S32x2048x2048 ![0, 1, 2] bcast_S1x2048x2048_S32x2048x2048_0_1_2 (broadcastInDim S1x2048x2048 ![1, 2] bcast_S2048x2048_S1x2048x2048_1_2 eyeR))
    (corrR U d)

/-- The mean over the rows n of New a0, from the product U. -/
def meanNewR (U : FVec Ideal S32x2048x2048 .f32) (a0 : FVec Ideal S32x2048x256 .f32) : FVec Ideal S32x256 .f32 :=
  Host.divf (Host.reduceAdd (Host.dotGeneral dot_S32x2048x2048_S32x2048x256_S32x2048x256_2_1_1_2_0_0 none (newR U (drR U)) a0) (constant (F := Ideal) S_ .f32 0x00000000#32) reducesTo_S32x2048x256_S32x256_d1 h_S_)
    (broadcastInDim S32x256 ![] bcast_S_S32x256 (constant (F := Ideal) S_ .f32 0x45000000#32))

/-- The program's values %10 to %51: w1, b1 make the right projection, w2, b2 the left one. -/
def vfinR (a0 : FVec Ideal S32x2048x256 .f32) (w1 : FVec Ideal S64x256 .f32) (b1 : FVec Ideal S64 .f32)
    (w2 : FVec Ideal S64x256 .f32) (b2 : FVec Ideal S64 .f32) : FVec Ideal S32x256 .f32 :=
  meanNewR (uncR (featR a0 w2 b2) (featR a0 w1 b1)) a0

/-- The linear layer: vf wl^T + bl. -/
def linR (vf : FVec Ideal S32x256 .f32) (wl : FVec Ideal S256x256 .f32) (bl : FVec Ideal S256 .f32) : FVec Ideal S32x256 .f32 :=
  addf (Host.dotGeneral dot_S32x256_S256x256_S32x256_1_0_0_1_n_n none vf (transpose S256x256 [1, 0] wl transposes_S256x256_S256x256_1_0)) (broadcastInDim S32x256 ![0, 1] bcast_S1x256_S32x256_0_1 (broadcastInDim S1x256 ![1] bcast_S256_S1x256_1 bl))

/-- The mean over the batch. -/
def meanR (y : FVec Ideal S32x256 .f32) : FVec Ideal S256 .f32 :=
  Host.divf (Host.reduceAdd y (constant (F := Ideal) S_ .f32 0x00000000#32) reducesTo_S32x256_S256_d0 h_S_) (broadcastInDim S256 ![] bcast_S_S256 (constant (F := Ideal) S_ .f32 0x42000000#32))

/-- The count 32 less the degrees of freedom removed (the integer zero read as a number). -/
def cntR : FVec Ideal S_ .f32 := subf (constant (F := Ideal) S_ .f32 0x42000000#32) (sitofp .f32 (constantI S_ 32 0#32))

/-- The centred values of the variance: y less its batch mean, the mean taken row-shaped. -/
def cenR (y : FVec Ideal S32x256 .f32) : FVec Ideal S32x256 .f32 :=
  subf y (broadcastInDim S32x256 ![0, 1] bcast_S1x256_S32x256_0_1
    (Host.divf (broadcastInDim S1x256 ![1] bcast_S256_S1x256_1 (Host.reduceAdd y (constant (F := Ideal) S_ .f32 0x00000000#32) reducesTo_S32x256_S256_d0 h_S_))
      (broadcastInDim S1x256 ![] bcast_S_S1x256 (constant (F := Ideal) S_ .f32 0x42000000#32))))

/-- The variance over the batch: the sum of squares of the centred values over the count where the count is positive,
    the not-a-number word elsewhere. -/
def varR (y : FVec Ideal S32x256 .f32) : FVec Ideal S256 .f32 :=
  select (broadcastInDim S256 ![] bcast_S_S256 (cmpf .ogt cntR (constant (F := Ideal) S_ .f32 0x00000000#32)))
    (Host.divf (Host.reduceAdd (mulf (cenR y) (cenR y)) (constant (F := Ideal) S_ .f32 0x00000000#32) reducesTo_S32x256_S256_d0 h_S_) (broadcastInDim S256 ![] bcast_S_S256 cntR))
    (broadcastInDim S256 ![] bcast_S_S256 (id (constant (F := Ideal) S_ .f32 0x7FC00000#32)))

/-- The normalisation over the batch with scale g and shift be. -/
def normR (y : FVec Ideal S32x256 .f32) (g be : FVec Ideal S256 .f32) : FVec Ideal S32x256 .f32 :=
  addf (mulf (mulf (subf y (broadcastInDim S32x256 ![0, 1] bcast_S1x256_S32x256_0_1 (broadcastInDim S1x256 ![1] bcast_S256_S1x256_1 (meanR y))))
        (broadcastInDim S32x256 ![0, 1] bcast_S1x256_S32x256_0_1 (broadcastInDim S1x256 ![1] bcast_S256_S1x256_1 (Host.rsqrt (addf (varR y) (broadcastInDim S256 ![] bcast_S_S256 (constant (F := Ideal) S_ .f32 0x3727C5AC#32)))))))
      (broadcastInDim S32x256 ![0, 1] bcast_S1x256_S32x256_0_1 (broadcastInDim S1x256 ![1] bcast_S256_S1x256_1 g)))
    (broadcastInDim S32x256 ![0, 1] bcast_S1x256_S32x256_0_1 (broadcastInDim S1x256 ![1] bcast_S256_S1x256_1 be))

/-- The program's values %52 to %75. -/
def tailR (vf : FVec Ideal S32x256 .f32) (wl : FVec Ideal S256x256 .f32) (bl g be : FVec Ideal S256 .f32) : FVec Ideal S32x256 .f32 :=
  normR (linR vf wl bl) g be

/-! ## The program's fold is that term -/

attribute [local irreducible] Host.reduceAdd in
set_option maxRecDepth 16384 in
set_option maxHeartbeats 4000000 in
/-- The fold of the 118 operations read at the result buffer is the composed term: each operation's result is its
    function of its operands' contents, a value carried to a buffer's own type and back is the value, and what is left
    is the term, by computation. -/
theorem result_eq (V : Valuation τ sig (Elt Ideal)) :
    after (ops (F := Ideal)) V (main_v75 : DevRef τ sig)
      = tailR (vfinR (V main_arg0) (wn (V main_arg1) (V main_arg2)) (V main_arg3) (wn (V main_arg4) (V main_arg5)) (V main_arg6))
          (V main_arg7) (V main_arg8) (V main_arg9) (V main_arg10) := by
  after_results_simp
  rfl

attribute [local irreducible] Host.reduceAdd in
set_option maxRecDepth 16384 in
theorem arg_eq_0 (V : Valuation τ sig (Elt Ideal)) :
    after (ops (F := Ideal)) V (main_arg0 : DevRef τ sig) = V main_arg0 := by
  after_results_simp

attribute [local irreducible] Host.reduceAdd in
set_option maxRecDepth 16384 in
theorem arg_eq_1 (V : Valuation τ sig (Elt Ideal)) :
    after (ops (F := Ideal)) V (main_arg1 : DevRef τ sig) = V main_arg1 := by
  after_results_simp

attribute [local irreducible] Host.reduceAdd in
set_option maxRecDepth 16384 in
theorem arg_eq_2 (V : Valuation τ sig (Elt Ideal)) :
    after (ops (F := Ideal)) V (main_arg2 : DevRef τ sig) = V main_arg2 := by
  after_results_simp

attribute [local irreducible] Host.reduceAdd in
set_option maxRecDepth 16384 in
theorem arg_eq_3 (V : Valuation τ sig (Elt Ideal)) :
    after (ops (F := Ideal)) V (main_arg3 : DevRef τ sig) = V main_arg3 := by
  after_results_simp

attribute [local irreducible] Host.reduceAdd in
set_option maxRecDepth 16384 in
theorem arg_eq_4 (V : Valuation τ sig (Elt Ideal)) :
    after (ops (F := Ideal)) V (main_arg4 : DevRef τ sig) = V main_arg4 := by
  after_results_simp

attribute [local irreducible] Host.reduceAdd in
set_option maxRecDepth 16384 in
theorem arg_eq_5 (V : Valuation τ sig (Elt Ideal)) :
    after (ops (F := Ideal)) V (main_arg5 : DevRef τ sig) = V main_arg5 := by
  after_results_simp

attribute [local irreducible] Host.reduceAdd in
set_option maxRecDepth 16384 in
theorem arg_eq_6 (V : Valuation τ sig (Elt Ideal)) :
    after (ops (F := Ideal)) V (main_arg6 : DevRef τ sig) = V main_arg6 := by
  after_results_simp

attribute [local irreducible] Host.reduceAdd in
set_option maxRecDepth 16384 in
theorem arg_eq_7 (V : Valuation τ sig (Elt Ideal)) :
    after (ops (F := Ideal)) V (main_arg7 : DevRef τ sig) = V main_arg7 := by
  after_results_simp

attribute [local irreducible] Host.reduceAdd in
set_option maxRecDepth 16384 in
theorem arg_eq_8 (V : Valuation τ sig (Elt Ideal)) :
    after (ops (F := Ideal)) V (main_arg8 : DevRef τ sig) = V main_arg8 := by
  after_results_simp

attribute [local irreducible] Host.reduceAdd in
set_option maxRecDepth 16384 in
theorem arg_eq_9 (V : Valuation τ sig (Elt Ideal)) :
    after (ops (F := Ideal)) V (main_arg9 : DevRef τ sig) = V main_arg9 := by
  after_results_simp

attribute [local irreducible] Host.reduceAdd in
set_option maxRecDepth 16384 in
theorem arg_eq_10 (V : Valuation τ sig (Elt Ideal)) :
    after (ops (F := Ideal)) V (main_arg10 : DevRef τ sig) = V main_arg10 := by
  after_results_simp

/-! ## The run -/

/-- On every device, from any memory with zero counters: every weakly fair execution of @main terminates with the
    result buffer at the composed term of the arguments' launch contents and every argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75)
          = tailR (vfinR (m ((c.tc : Thread nD τ).loc main_arg0)) (wn (m ((c.tc : Thread nD τ).loc main_arg1)) (m ((c.tc : Thread nD τ).loc main_arg2))) (m ((c.tc : Thread nD τ).loc main_arg3))
              (wn (m ((c.tc : Thread nD τ).loc main_arg4)) (m ((c.tc : Thread nD τ).loc main_arg5))) (m ((c.tc : Thread nD τ).loc main_arg6)))
            (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v75).trans (result_eq (launchContents m c)),
      (h c main_arg0).trans (arg_eq_0 (launchContents m c)),
      (h c main_arg1).trans (arg_eq_1 (launchContents m c)),
      (h c main_arg2).trans (arg_eq_2 (launchContents m c)),
      (h c main_arg3).trans (arg_eq_3 (launchContents m c)),
      (h c main_arg4).trans (arg_eq_4 (launchContents m c)),
      (h c main_arg5).trans (arg_eq_5 (launchContents m c)),
      (h c main_arg6).trans (arg_eq_6 (launchContents m c)),
      (h c main_arg7).trans (arg_eq_7 (launchContents m c)),
      (h c main_arg8).trans (arg_eq_8 (launchContents m c)),
      (h c main_arg9).trans (arg_eq_9 (launchContents m c)),
      (h c main_arg10).trans (arg_eq_10 (launchContents m c))⟩)
    (RefRun.run_main m ρ)

end Cert.ReferenceIdeal.RefValue

end
-- ==== Proof.KerHost.lean ====
/-
  The kernel program's host operations around the region, on the extended reals.
  Before the region: each weight matrix is normalised row by row (each row scaled by its gain over its Euclidean norm) and
  transposed, and each bias vector is laid out as a row; these are the arrays the region's four small windows read. After
  the region: the [32, 1, 256] result is viewed as [32, 256] and goes through the linear layer and the normalisation over
  the batch. Both stretches are the same operations the reference applies, so they are carried as the reference's terms.
-/
import proofs.«144438_j52733608460806_1_alg».proof.Proof.KerValue
import proofs.«144438_j52733608460806_1_alg».proof.Proof.RefValue
import Idealize.ShloMosaic.Lib.StableHlo.Run

set_option maxRecDepth 16384

noncomputable section

namespace Cert.KernelIdeal.KerHost

open Cert.KernelIdeal Cert.KernelIdeal.Gen Cert.KernelIdeal.KerValue Idealize.ShloMosaic Idealize.ShloMosaic.TcCoe
open Idealize.SL.Sem Idealize.ShloMosaic.StableHlo
open Cert.ReferenceIdeal.RefValue (wn tailR)

variable (m : (ℓ : Loc nD τ sig) → Buf (Elt Ideal) ℓ) (ρ : Dev nD → PrngReg)

attribute [local irreducible] Host.reduceAdd in
/-- The first weight window's array: the first weight matrix normalised, transposed. -/
theorem V_v10 (c : Dev nD) : (V m c main_v10 : S256x64.Idx → EReal)
    = transpose S256x64 [1, 0] (wn (m ((c : Thread nD τ).loc main_arg1)) (m ((c : Thread nD τ).loc main_arg2))) transposes_S64x256_S256x64_1_0 := by
  dsimp only [V, V0]
  simp only [hostOps0, hostOps0_1, hostOps0_2, hostOps0_3, List.flatten_cons, List.flatten_nil, List.append_nil, List.cons_append, List.nil_append]
  after_results
  rfl

attribute [local irreducible] Host.reduceAdd in
/-- The second weight window's array: the second weight matrix normalised, transposed. -/
theorem V_v11 (c : Dev nD) : (V m c main_v11 : S256x64.Idx → EReal)
    = transpose S256x64 [1, 0] (wn (m ((c : Thread nD τ).loc main_arg4)) (m ((c : Thread nD τ).loc main_arg5))) transposes_S64x256_S256x64_1_0 := by
  dsimp only [V, V0]
  simp only [hostOps0, hostOps0_1, hostOps0_2, hostOps0_3, List.flatten_cons, List.flatten_nil, List.append_nil, List.cons_append, List.nil_append]
  after_results
  rfl

/-- The bias windows' arrays: the bias vectors as rows. -/
theorem V_v12 (c : Dev nD) : (V m c main_v12 : S1x64.Idx → EReal)
    = shapeCast S1x64 (m ((c : Thread nD τ).loc main_arg3)) shapeCasts_S64_S1x64 := by
  dsimp only [V, V0]
  simp only [hostOps0, hostOps0_1, hostOps0_2, hostOps0_3, List.flatten_cons, List.flatten_nil, List.append_nil, List.cons_append, List.nil_append]
  after_results
  rfl

theorem V_v13 (c : Dev nD) : (V m c main_v13 : S1x64.Idx → EReal)
    = shapeCast S1x64 (m ((c : Thread nD τ).loc main_arg6)) shapeCasts_S64_S1x64 := by
  dsimp only [V, V0]
  simp only [hostOps0, hostOps0_1, hostOps0_2, hostOps0_3, List.flatten_cons, List.flatten_nil, List.append_nil, List.cons_append, List.nil_append]
  after_results
  rfl

attribute [local irreducible] Host.reduceAdd in
set_option maxHeartbeats 4000000 in
/-- The program's result: the lines after the region applied to the region's result array. -/
theorem tail_eq (c : Dev nD) :
    (Pipeline.afterTail₀ cfgs (dats m) 0 (V0 m) [hostOps1, hostOps1_1, hostOps1_2] c main_v39 : S32x256.Idx → EReal)
      = tailR (shapeCast S32x256 ((dats m 0 c).arrAt 5 cfg0.N) shapeCasts_S32x1x256_S32x256)
          (m ((c : Thread nD τ).loc main_arg7)) (m ((c : Thread nD τ).loc main_arg8)) (m ((c : Thread nD τ).loc main_arg9)) (m ((c : Thread nD τ).loc main_arg10)) := by
  have w14 : Pipeline.withArrays (cfgs 0).spec c (V0 m c) (fun w => (dats m 0 c).arrAt w (cfgs 0).N) (Proc.tc.devRef main_v14)
      = (dats m 0 c).arrAt 5 cfg0.N := Pipeline.withArrays_arr spec0 launch0.win.arr_inj c _ _ 5
  have w7 : Pipeline.withArrays (cfgs 0).spec c (V0 m c) (fun w => (dats m 0 c).arrAt w (cfgs 0).N) (Proc.tc.devRef main_arg7)
      = (m ((c : Thread nD τ).loc main_arg7)) :=
    (Pipeline.withArrays_of_ne _ c (V0 m c) _ main_arg7 (by exact (by decide : ∀ w, Pipeline.arrRef spec0 w ≠ main_arg7))).trans (V_main_arg7 m c)
  have w8 : Pipeline.withArrays (cfgs 0).spec c (V0 m c) (fun w => (dats m 0 c).arrAt w (cfgs 0).N) (Proc.tc.devRef main_arg8)
      = (m ((c : Thread nD τ).loc main_arg8)) :=
    (Pipeline.withArrays_of_ne _ c (V0 m c) _ main_arg8 (by exact (by decide : ∀ w, Pipeline.arrRef spec0 w ≠ main_arg8))).trans (V_main_arg8 m c)
  have w9 : Pipeline.withArrays (cfgs 0).spec c (V0 m c) (fun w => (dats m 0 c).arrAt w (cfgs 0).N) (Proc.tc.devRef main_arg9)
      = (m ((c : Thread nD τ).loc main_arg9)) :=
    (Pipeline.withArrays_of_ne _ c (V0 m c) _ main_arg9 (by exact (by decide : ∀ w, Pipeline.arrRef spec0 w ≠ main_arg9))).trans (V_main_arg9 m c)
  have w10 : Pipeline.withArrays (cfgs 0).spec c (V0 m c) (fun w => (dats m 0 c).arrAt w (cfgs 0).N) (Proc.tc.devRef main_arg10)
      = (m ((c : Thread nD τ).loc main_arg10)) :=
    (Pipeline.withArrays_of_ne _ c (V0 m c) _ main_arg10 (by exact (by decide : ∀ w, Pipeline.arrRef spec0 w ≠ main_arg10))).trans (V_main_arg10 m c)
  unfold Pipeline.afterTail₀
  simp only [hostOps1, hostOps1_1, hostOps1_2, List.flatten_cons, List.flatten_nil, List.append_nil, List.cons_append, List.nil_append]
  after_results_simp
  rw [w14, w7, w8, w9, w10]
  rfl

end Cert.KernelIdeal.KerHost

end
-- ==== Proof.RefMath.lean ====
/-
  The reference's mean term read at an index.

  vfinR is a composition of host operations on whole arrays. Read at batch entry b and feature q it is the function of
  Spec.lean at the rows of batch entry b: each operation is read at explicit coordinates —
    a product over a contracted axis is the sum over that axis of the products of the entries;
    a sum over one axis from a zero initial value is the sum over that axis's coordinates;
    a broadcast reads its operand at the coordinates the broadcast keeps;
    the comparison of the row and column numbers, as 32-bit words, is the comparison of the numbers (both below 2048);
    a selection on that bit is an if, and the bit read as a number is the identity matrix's entry;
  and the two orders in which the normalisers multiply an entry of the product agree by commutativity and associativity.
-/
import proofs.«144438_j52733608460806_1_alg».proof.Proof.RefValue
import proofs.«144438_j52733608460806_1_alg».proof.Proof.LibSelectBit
import proofs.«144438_j52733608460806_1_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-! ## Products over a contracted axis, at an index -/

/-- Rows against a weight matrix: [G, m, k] by [n, k], contracting the last axis of each. -/
theorem dot_rowsW_apply {G m k n : Nat} {φ₁ φ₂ : FTy}
    (w : DotDims.WF ⟨3, ![G, m, k]⟩ ⟨2, ![n, k]⟩ ⟨3, ![G, m, n]⟩ [2] [1] [0, 1] [0] [] [])
    (prec : Option ContractPrecision) (A : FVec Ideal ⟨3, ![G, m, k]⟩ φ₁) (B : FVec Ideal ⟨2, ![n, k]⟩ φ₂)
    (g : Fin G) (a : Fin m) (b : Fin n) :
    Host.dotGeneral (⟨[2], [1], [0, 1], [0], [], [], w⟩ : DotDims _ _ _) prec A B (ix3 g a b)
      = ∑ c : Fin k, A (ix3 g a c) * B (ix2 b c) := by
  show FloatOps.dotGeneral _ prec _ A B (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![G, m, k]⟩ ⟨2, ![n, k]⟩ ⟨3, ![G, m, n]⟩) k rfl rfl c
  have l3 : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx] <;> rfl
    | ⟨1, _⟩ => simp [DotDims.lhsIdx] <;> rfl
    | ⟨2, _⟩ => simp [DotDims.lhsIdx] <;> exact c3
  have r3 : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx] <;> rfl
    | ⟨1, _⟩ => simp [DotDims.rhsIdx] <;> exact c3
  rw [l3, r3]

/-- Two stacks of rows against each other: [G, m, k] by [G, n, k], batch axis 0, contracting the last axis of each. -/
theorem dot_stackT_apply {G m k n : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx] <;> rfl
    | ⟨1, _⟩ => simp [DotDims.lhsIdx] <;> rfl
    | ⟨2, _⟩ => simp [DotDims.lhsIdx] <;> exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx] <;> rfl
    | ⟨1, _⟩ => simp [DotDims.rhsIdx] <;> rfl
    | ⟨2, _⟩ => simp [DotDims.rhsIdx] <;> exact c3
  rw [l3, r3]

/-! ## Sums over the middle axis, from zero -/

theorem sumMid_2048_apply (x : FVec Ideal S32x2048x2048 .f32) (b : Fin 32) (m : Fin 2048) :
    Host.reduceAdd x (constant (F := Ideal) S_ .f32 0x00000000#32) reducesTo_S32x2048x2048_S32x2048_d1 h_S_ (ix2 b m)
      = ∑ n : Fin 2048, x (ix3 b n m) := by
  have hR : S32x2048x2048.Reduces [1] S32x2048 := by decide
  rw [hostReduceAdd_apply, Ideal.hostReduceAdd_single _ hR]
  show Ideal.ofBits .f32 0x00000000#32 + ∑ n : Fin 2048, x (hR.lift (ix2 b m) n) = _
  rw [Ideal.ofBits_zero_f32, zero_add]
  refine Finset.sum_congr rfl fun n _ => congrArg x ?_
  funext ax; apply Fin.ext
  match ax with
  | ⟨0, _⟩ => rfl
  | ⟨1, _⟩ => rfl
  | ⟨2, _⟩ => rfl

theorem sumMid_256_apply (x : FVec Ideal S32x2048x256 .f32) (b : Fin 32) (q : Fin 256) :
    Host.reduceAdd x (constant (F := Ideal) S_ .f32 0x00000000#32) reducesTo_S32x2048x256_S32x256_d1 h_S_ (ix2 b q)
      = ∑ n : Fin 2048, x (ix3 b n q) := by
  have hR : S32x2048x256.Reduces [1] S32x256 := by decide
  rw [hostReduceAdd_apply, Ideal.hostReduceAdd_single _ hR]
  show Ideal.ofBits .f32 0x00000000#32 + ∑ n : Fin 2048, x (hR.lift (ix2 b q) n) = _
  rw [Ideal.ofBits_zero_f32, zero_add]
  refine Finset.sum_congr rfl fun n _ => congrArg x ?_
  funext ax; apply Fin.ext
  match ax with
  | ⟨0, _⟩ => rfl
  | ⟨1, _⟩ => rfl
  | ⟨2, _⟩ => rfl

/-! ## The row and column numbers compared as words -/

/-- Two numbers below 2048 are equal as 32-bit words exactly when they are equal. -/
theorem word_beq (n m : Fin 2048) : (BitVec.ofNat 32 n.val == BitVec.ofNat 32 m.val) = decide (n = m) := by
  rw [Bool.eq_iff_iff, beq_iff_eq, decide_eq_true_iff]
  constructor
  · intro h
    have h2 := congrArg BitVec.toNat h
    simp only [BitVec.toNat_ofNat] at h2
    have hn := n.isLt
    have hm := m.isLt
    apply Fin.ext
    omega
  · rintro rfl
    rfl

/-- The comparison bit of the row and column numbers. -/
theorem eqBit (n m : Fin 2048) :
    IntOp.cmpi .eq (BitVec.ofNat 32 n.val) (BitVec.ofNat 32 m.val) = if n = m then 1#1 else 0#1 := by
  unfold IntOp.cmpi
  show BitVec.ofBool (BitVec.ofNat 32 n.val == BitVec.ofNat 32 m.val) = _
  rw [word_beq]
  by_cases h : n = m
  · rw [if_pos h, decide_eq_true h]; rfl
  · rw [if_neg h, decide_eq_false h]; rfl

/-- A selection on that bit is an if. -/
theorem selBit {α : Type} (n m : Fin 2048) (x y : α) :
    Scalar.select (IntOp.cmpi .eq (BitVec.ofNat 32 n.val) (BitVec.ofNat 32 m.val)) x y = if n = m then x else y := by
  rw [eqBit]
  by_cases h : n = m
  · rw [if_pos h, if_pos h, select_one]
  · rw [if_neg h, if_neg h, select_zero]

/-- The bit read as a number is the identity matrix's entry. -/
theorem numBit (n m : Fin 2048) :
    FloatOps.uitofp (F := Ideal) .f32 (IntOp.cmpi .eq (IntOp.addi (BitVec.ofNat 32 n.val) 0#32) (BitVec.ofNat 32 m.val))
      = Cert.UnCorr.eyeW n m := by
  have h0 : IntOp.addi (BitVec.ofNat 32 n.val) 0#32 = BitVec.ofNat 32 n.val := by
    unfold IntOp.addi; exact BitVec.add_zero _
  rw [h0, eqBit]
  unfold Cert.UnCorr.eyeW
  by_cases h : n = m
  · rw [if_pos h, if_pos h]
    show (((1#1 : BitVec 1).toNat : ℝ) : EReal) = 1
    simp
  · rw [if_neg h, if_neg h]
    show (((0#1 : BitVec 1).toNat : ℝ) : EReal) = 0
    simp

/-! ## The stages, at an index -/

theorem featR_apply (a0 : FVec Ideal S32x2048x256 .f32) (w : FVec Ideal S64x256 .f32) (bb : FVec Ideal S64 .f32)
    (b : Fin 32) (n : Fin 2048) (l : Fin 64) :
    featR a0 w bb (ix3 b n l)
      = Cert.UnCorr.feat (fun n k => a0 (ix3 b n k)) (fun l k => w (ix2 l k)) (fun l => bb (ix1 l)) n l := by
  have hd : Host.dotGeneral dot_S32x2048x256_S64x256_S32x2048x64_2_1_01_0_n_n none a0 w (ix3 b n l) = ∑ k : Fin 256, a0 (ix3 b n k) * w (ix2 l k) :=
    dot_rowsW_apply dot_S32x2048x256_S64x256_S32x2048x64_2_1_01_0_n_n_wf none a0 w b n l
  have hb : broadcastInDim S32x2048x64 ![0, 1, 2] bcast_S1x1x64_S32x2048x64_0_1_2 (broadcastInDim S1x1x64 ![2] bcast_S64_S1x1x64_2 bb) (ix3 b n l)
      = bb (ix1 l) := by
    rw [broadcastInDim_apply _ _ _ (ix3 b n l) (ix3 (0 : Fin 1) (0 : Fin 1) l) (fun a => by
      match a with
      | ⟨0, _⟩ => rfl
      | ⟨1, _⟩ => rfl
      | ⟨2, _⟩ => rfl)]
    exact broadcastInDim_apply _ _ _ _ (ix1 l) (fun a => by
      match a with
      | ⟨0, _⟩ => rfl)
  unfold featR Cert.UnCorr.feat
  rw [maximumf_apply, addf_apply, hd, hb]
  show max _ (Ideal.ofBits .f32 0x00000000#32) = _
  rw [Ideal.ofBits_zero_f32]

theorem uncR_apply (L R : FVec Ideal S32x2048x64 .f32) (b : Fin 32) (n m : Fin 2048) :
    uncR L R (ix3 b n m) = ∑ l : Fin 64, L (ix3 b n l) * R (ix3 b m l) :=
  dot_stackT_apply dot_S32x2048x64_S32x2048x64_S32x2048x2048_2_2_1_1_0_0_wf none L R b n m

theorem diagR_apply (U : FVec Ideal S32x2048x2048 .f32) (b : Fin 32) (m : Fin 2048) :
    diagR U (ix2 b m) = U (ix3 b m m) := by
  unfold diagR
  rw [sumMid_2048_apply]
  have hs : ∀ n : Fin 2048,
      select (broadcastInDim S32x2048x2048 ![1, 2] bcast_S2048x2048_S32x2048x2048_1_2 (cmpi .eq (iotaInDim S2048x2048 32 0) (iotaInDim S2048x2048 32 1)))
        U (broadcastInDim S32x2048x2048 ![] bcast_S_S32x2048x2048 (constant (F := Ideal) S_ .f32 0x00000000#32)) (ix3 b n m)
      = if n = m then U (ix3 b n m) else 0 := by
    intro n
    rw [select_apply, broadcastInDim_apply _ _ _ (ix3 b n m) (ix2 n m) (fun a => by
      match a with
      | ⟨0, _⟩ => rfl
      | ⟨1, _⟩ => rfl)]
    show Scalar.select (IntOp.cmpi .eq (BitVec.ofNat 32 n.val) (BitVec.ofNat 32 m.val)) (U (ix3 b n m)) (Ideal.ofBits .f32 0x00000000#32) = _
    rw [selBit, Ideal.ofBits_zero_f32]
  rw [Finset.sum_congr rfl fun n _ => hs n]
  exact Cert.UnCorr.diag_pick (fun n m => U (ix3 b n m)) m

theorem drR_apply (U : FVec Ideal S32x2048x2048 .f32) (b : Fin 32) (n : Fin 2048) :
    drR U (ix2 b n) = Ideal.rsqrt (U (ix3 b n n) + Ideal.ofBits .f32 0x358637BD#32) := by
  unfold drR
  show Ideal.rsqrt (diagR U (ix2 b n) + Ideal.ofBits .f32 0x358637BD#32) = _
  rw [diagR_apply]

theorem corrR_apply (U : FVec Ideal S32x2048x2048 .f32) (d : FVec Ideal S32x2048 .f32) (b : Fin 32) (n m : Fin 2048) :
    corrR U d (ix3 b n m) = (d (ix2 b m) * U (ix3 b n m)) * d (ix2 b n) := by
  have h1 : broadcastInDim S32x2048x2048 ![0, 1, 2] bcast_S32x1x2048_S32x2048x2048_0_1_2 (broadcastInDim S32x1x2048 ![0, 2] bcast_S32x2048_S32x1x2048_0_2 d) (ix3 b n m)
      = d (ix2 b m) := by
    rw [broadcastInDim_apply _ _ _ (ix3 b n m) (ix3 b (0 : Fin 1) m) (fun a => by
      match a with
      | ⟨0, _⟩ => rfl
      | ⟨1, _⟩ => rfl
      | ⟨2, _⟩ => rfl)]
    exact broadcastInDim_apply _ _ _ _ (ix2 b m) (fun a => by
      match a with
      | ⟨0, _⟩ => rfl
      | ⟨1, _⟩ => rfl)
  have h2 : broadcastInDim S32x2048x2048 ![0, 1, 2] bcast_S32x2048x1_S32x2048x2048_0_1_2 (broadcastInDim S32x2048x1 ![0, 1] bcast_S32x2048_S32x2048x1_0_1 d) (ix3 b n m)
      = d (ix2 b n) := by
    rw [broadcastInDim_apply _ _ _ (ix3 b n m) (ix3 b n (0 : Fin 1)) (fun a => by
      match a with
      | ⟨0, _⟩ => rfl
      | ⟨1, _⟩ => rfl
      | ⟨2, _⟩ => rfl)]
    exact broadcastInDim_apply _ _ _ _ (ix2 b n) (fun a => by
      match a with
      | ⟨0, _⟩ => rfl
      | ⟨1, _⟩ => rfl)
  unfold corrR
  rw [mulf_apply, mulf_apply, h1, h2]

theorem eyeR_apply (n m : Fin 2048) : eyeR (ix2 n m) = 1 + Cert.UnCorr.eyeW n m := by
  unfold eyeR
  rw [addf_apply]
  show Ideal.ofBits .f32 0x3F800000#32
      + FloatOps.uitofp (F := Ideal) .f32 (IntOp.cmpi .eq (IntOp.addi (BitVec.ofNat 32 n.val) 0#32) (BitVec.ofNat 32 m.val)) = _
  rw [Cert.LibSelectBit.ofBits_one_f32, numBit]

theorem newR_apply (U : FVec Ideal S32x2048x2048 .f32) (d : FVec Ideal S32x2048 .f32) (b : Fin 32) (n m : Fin 2048) :
    newR U d (ix3 b n m) = (1 + Cert.UnCorr.eyeW n m) - (d (ix2 b m) * U (ix3 b n m)) * d (ix2 b n) := by
  have h1 : broadcastInDim S32x2048x2048 ![0, 1, 2] bcast_S1x2048x2048_S32x2048x2048_0_1_2 (broadcastInDim S1x2048x2048 ![1, 2] bcast_S2048x2048_S1x2048x2048_1_2 eyeR) (ix3 b n m)
      = eyeR (ix2 n m) := by
    rw [broadcastInDim_apply _ _ _ (ix3 b n m) (ix3 (0 : Fin 1) n m) (fun a => by
      match a with
      | ⟨0, _⟩ => rfl
      | ⟨1, _⟩ => rfl
      | ⟨2, _⟩ => rfl)]
    exact broadcastInDim_apply _ _ _ _ (ix2 n m) (fun a => by
      match a with
      | ⟨0, _⟩ => rfl
      | ⟨1, _⟩ => rfl)
  unfold newR
  rw [subf_apply, h1, eyeR_apply, corrR_apply]

theorem meanNewR_apply (U : FVec Ideal S32x2048x2048 .f32) (a0 : FVec Ideal S32x2048x256 .f32) (b : Fin 32) (q : Fin 256) :
    meanNewR U a0 (ix2 b q)
      = Ideal.div (∑ n : Fin 2048, ∑ m : Fin 2048, newR U (drR U) (ix3 b n m) * a0 (ix3 b m q)) (Ideal.ofBits .f32 0x45000000#32) := by
  have e : ∀ x y : FVec Ideal S32x256 .f32, Host.divf x y (ix2 b q) = Ideal.div (x (ix2 b q)) (y (ix2 b q)) := fun _ _ => rfl
  unfold meanNewR
  rw [e, sumMid_256_apply]
  show Ideal.div _ (Ideal.ofBits .f32 0x45000000#32) = _
  refine congrArg (fun s => Ideal.div s _) (Finset.sum_congr rfl fun n _ => ?_)
  exact StackMember.dotGeneral_stack_apply dot_S32x2048x2048_S32x2048x256_S32x2048x256_2_1_1_2_0_0_wf none _ a0 b n q

/-! ## The mean term is the specification's, at an index -/

theorem vfinR_apply (a0 : FVec Ideal S32x2048x256 .f32) (w1 : FVec Ideal S64x256 .f32) (b1 : FVec Ideal S64 .f32)
    (w2 : FVec Ideal S64x256 .f32) (b2 : FVec Ideal S64 .f32) (b : Fin 32) (q : Fin 256) :
    vfinR a0 w1 b1 w2 b2 (ix2 b q)
      = Cert.UnCorr.vfin (fun n k => a0 (ix3 b n k)) (fun l k => w1 (ix2 l k)) (fun l => b1 (ix1 l))
          (fun l k => w2 (ix2 l k)) (fun l => b2 (ix1 l)) q := by
  have hU : ∀ n m : Fin 2048, uncR (featR a0 w2 b2) (featR a0 w1 b1) (ix3 b n m)
      = Cert.UnCorr.unc (Cert.UnCorr.feat (fun n k => a0 (ix3 b n k)) (fun l k => w2 (ix2 l k)) (fun l => b2 (ix1 l)))
          (Cert.UnCorr.feat (fun n k => a0 (ix3 b n k)) (fun l k => w1 (ix2 l k)) (fun l => b1 (ix1 l))) n m := by
    intro n m
    rw [uncR_apply]
    unfold Cert.UnCorr.unc
    exact Finset.sum_congr rfl fun l _ => by rw [featR_apply, featR_apply]
  unfold vfinR Cert.UnCorr.vfin
  rw [meanNewR_apply]
  refine congrArg (fun s => Ideal.div s _) (Finset.sum_congr rfl fun n _ => Finset.sum_congr rfl fun m _ => ?_)
  rw [newR_apply, drR_apply, drR_apply, hU, hU, hU]
  unfold Cert.UnCorr.newW Cert.UnCorr.dr
  rw [Cert.UnCorr.corr_comm]

end Cert.ReferenceIdeal.RefValue

end
-- ==== Proof.LibUnitMid.lean ====
/-
  A unit middle axis dropped by a shape cast, read at coordinates: an [a, 1, b] array cast to [a, b] reads, at (p, q), the
  operand at (p, 0, q), for any extents and element type.
-/
import Idealize.ShloMosaic.Lib.Pipeline.Value
import Idealize.ShloMosaic.Lib.ValueIdx

noncomputable section

namespace Cert.LibUnitMid

open Idealize.ShloMosaic Idealize.ShloMosaic.ValueIdx

/-- An `[a, 1, b]` array cast to `[a, b]` reads, at `(p, q)`, the operand at `(p, 0, q)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

end Cert.LibUnitMid

end
-- ==== Proof.Bridge.lean ====
/-
  The kernel's result array, viewed as [32, 256], is the reference's mean-of-products array.
  Both are, at (b, q), the specification's vfin of batch entry b's rows at q: the kernel reads the transposed normalised
  weights at (k, l), which is the normalised weights at (l, k), and the bias rows at (0, l), which is the bias vectors at l.
-/
import proofs.«144438_j52733608460806_1_alg».proof.Proof.KerValue
import proofs.«144438_j52733608460806_1_alg».proof.Proof.RefMath
import proofs.«144438_j52733608460806_1_alg».proof.Proof.LibUnitMid
import Idealize.ShloMosaic.Lib.ValueLayout

noncomputable section

namespace Cert.Bridge

open Idealize.ShloMosaic Idealize.ShloMosaic.ValueIdx Cert.UnCorr Cert.KernelIdeal
open Cert.KernelIdeal.KerValue (G5)

theorem vfin_bridge (ht : S64x256.Transposes [1, 0] S256x64) (hc : S64.ShapeCasts S1x64) (hs : S32x1x256.ShapeCasts S32x256)
    (a0 : FVec Ideal S32x2048x256 .f32) (w1 w2 : FVec Ideal S64x256 .f32) (b1 b2 : FVec Ideal S64 .f32) :
    shapeCast S32x256
        (G5 a0 (transpose S256x64 [1, 0] w1 ht) (transpose S256x64 [1, 0] w2 ht) (shapeCast S1x64 b1 hc) (shapeCast S1x64 b2 hc)) hs
      = Cert.ReferenceIdeal.RefValue.vfinR a0 w1 b1 w2 b2 := by
  funext j
  obtain ⟨b, q, rfl⟩ : ∃ (b : Fin 32) (q : Fin 256), j = ix2 b q := ⟨j 0, j 1, eq_ix2 j⟩
  rw [Cert.ReferenceIdeal.RefValue.vfinR_apply]
  refine (Cert.LibUnitMid.shapeCast_a1b_ab_apply _ _ b q).trans ?_
  unfold G5
  show vfin (fun n k => a0 (ix3 b n k))
      (fun l k => transpose S256x64 [1, 0] w1 ht (ix2 k l)) (fun l => shapeCast S1x64 b1 hc (ix2 0 l))
      (fun l k => transpose S256x64 [1, 0] w2 ht (ix2 k l)) (fun l => shapeCast S1x64 b2 hc (ix2 0 l)) q = _
  have e1 : ∀ w : FVec Ideal S64x256 .f32,
      (fun (l : Fin 64) (k : Fin 256) => transpose S256x64 [1, 0] w ht (ix2 k l)) = fun l k => w (ix2 l k) :=
    fun w => funext fun l => funext fun k => transpose_ix2_apply w ht k l
  have e2 : ∀ v : FVec Ideal S64 .f32, (fun (l : Fin 64) => shapeCast S1x64 v hc (ix2 0 l)) = fun l => v (ix1 l) :=
    fun v => funext fun l => shapeCast_a_1a_apply v hc 0 l
  rw [e1 w1, e1 w2, e2 b1, e2 b2]

end Cert.Bridge

end
-- ==== Proof.KerRun.lean ====
/-
  The kernel program's run on the extended reals, read: every weakly fair execution terminates with the result buffer at
  the reference's composed term of the argument arrays — the region's result array is the reference's mean-of-products
  array, and the lines after the region are the reference's — and the arguments unchanged.
-/
import proofs.«144438_j52733608460806_1_alg».proof.Proof.KerHost
import proofs.«144438_j52733608460806_1_alg».proof.Proof.Bridge

set_option maxRecDepth 16384

noncomputable section

namespace Cert.KernelIdeal.KerRun

open Cert.KernelIdeal Cert.KernelIdeal.Gen Cert.KernelIdeal.KerValue Cert.KernelIdeal.KerHost Idealize.ShloMosaic Idealize.ShloMosaic.TcCoe
open Idealize.SL.Sem
open Cert.ReferenceIdeal.RefValue (wn tailR vfinR)

variable (m : (ℓ : Loc nD τ sig) → Buf (Elt Ideal) ℓ) (ρ : Dev nD → PrngReg)

/-- The result buffer after the lines that follow the region. -/
theorem result_eq (c : Dev nD) :
    (Pipeline.afterTail₀ cfgs (dats m) 0 (V0 m) [hostOps1, hostOps1_1, hostOps1_2] c main_v39 : S32x256.Idx → EReal)
      = tailR (vfinR (m ((c : Thread nD τ).loc main_arg0)) (wn (m ((c : Thread nD τ).loc main_arg1)) (m ((c : Thread nD τ).loc main_arg2))) (m ((c : Thread nD τ).loc main_arg3)) (wn (m ((c : Thread nD τ).loc main_arg4)) (m ((c : Thread nD τ).loc main_arg5))) (m ((c : Thread nD τ).loc main_arg6))) (m ((c : Thread nD τ).loc main_arg7)) (m ((c : Thread nD τ).loc main_arg8)) (m ((c : Thread nD τ).loc main_arg9)) (m ((c : Thread nD τ).loc main_arg10)) := by
  rw [tail_eq, final, V_main_arg0, V_v10, V_v11, V_v12, V_v13, Cert.Bridge.vfin_bridge]

theorem run : θ_run defs (onTc (τ := τ) (main (F := Ideal))) ⟨m, fun _ => 0, ρ⟩ fun r => ∀ c : Dev nD,
      r.2.mem ((c : Thread nD τ).loc main_v39) = tailR (vfinR (m ((c : Thread nD τ).loc main_arg0)) (wn (m ((c : Thread nD τ).loc main_arg1)) (m ((c : Thread nD τ).loc main_arg2))) (m ((c : Thread nD τ).loc main_arg3)) (wn (m ((c : Thread nD τ).loc main_arg4)) (m ((c : Thread nD τ).loc main_arg5))) (m ((c : Thread nD τ).loc main_arg6))) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).2 main_v39 (Pipeline.mem_restRefs_of main_v39 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.KerRun

end
-- ==== Proof.lean ====
/-
  The certificate's claim: a kernel that, per batch entry, projects the 2048 rows through two normalised weight matrices,
  forms the rank-64 product of the rectified projections, normalises it by its diagonal, subtracts it from one plus the
  identity, multiplies by the rows and averages over the rows — block by block of 256 rows, never holding the 2048 x 2048
  matrix — against the reference that forms the matrices whole; both then apply the same linear layer and normalisation
  over the batch.
  On the extended reals the two programs end with equal results. Per batch entry both compute the specification's vfin
  (Proof/Spec.lean): the kernel's eight partial sums added in order from zero are the sum over all rows, the reference's
  diagonal picked by selections is the product's diagonal, and the two orders in which the normalisers multiply an entry of
  the product agree by commutativity and associativity of the product; no finiteness of the inputs is used. The weight
  normalisation before and the linear layer and batch normalisation after are the same host operations in both programs and
  are carried as one term. The three frames are the kernel programs' frame certificates and the reference's run; the ideal
  pass rewrote nothing, so the idealization claim is trivial.
-/
import proofs.«144438_j52733608460806_1_alg».proof.Proof.Gen.Kernel
import proofs.«144438_j52733608460806_1_alg».proof.Proof.Gen.Kernel.Frame
import proofs.«144438_j52733608460806_1_alg».proof.Proof.Gen.KernelIdeal
import proofs.«144438_j52733608460806_1_alg».proof.Proof.Gen.KernelIdeal.Frame
import proofs.«144438_j52733608460806_1_alg».proof.Proof.Gen.ReferenceIdeal
import proofs.«144438_j52733608460806_1_alg».proof.Proof.Gen.Pre_finite_inputs
import proofs.«144438_j52733608460806_1_alg».proof.Proof.KerRun
import proofs.«144438_j52733608460806_1_alg».proof.Proof.RefValue
import proofs.«144438_j52733608460806_1_alg».proof.Defs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Both programs end at the reference's composed term of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
